-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x1600000 : Shape := ⟨2, ![2, 1600000]⟩
abbrev S5x128 : Shape := ⟨2, ![5, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x5 .f32) (main_arg1 : IVec S2x1600000 32) (main_arg2 : FVec F S5x128 .f32) (main_arg3 : FVec F S128 .f32) (main_arg4 : FVec F S128x1 .f32) (main_arg5 : FVec F S1 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x128 .f32 := Host.absf main_arg2
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x5 : Shape := ⟨2, ![100000, 5]⟩
abbrev S2x1600000 : Shape := ⟨2, ![2, 1600000]⟩
abbrev S5x128 : Shape := ⟨2, ![5, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x5 : Shape := ⟨2, ![1600000, 5]⟩
abbrev S1x128 : Shape := ⟨2, ![1, 128]⟩
abbrev S5000x5 : Shape := ⟨2, ![5000, 5]⟩
abbrev S5000x1 : Shape := ⟨2, ![5000, 1]⟩
abbrev S5000x128 : Shape := ⟨2, ![5000, 128]⟩
abbrev S1x1 : Shape := ⟨2, ![1, 1]⟩

abbrev nBuf : Space → Nat
  | .hbm => 78
  | .vmem => 11
  | .smem => 0
  | _ => 0

abbrev bufTy : (tb : Table) → Fin (tcTables nBuf tb) → BufTy
  | .hbm, ⟨0, _⟩ => ⟨S100000x5, .f32⟩
  | .hbm, ⟨1, _⟩ => ⟨S2x1600000, .i32⟩
  | .hbm, ⟨2, _⟩ => ⟨S5x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S1600000x1, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x5, .f32⟩
  | .hbm, ⟨51, _⟩ => ⟨S1600000x5, .f32⟩
  | .hbm, ⟨52, _⟩ => ⟨S1600000x5, .f32⟩
  | .hbm, ⟨53, _⟩ => ⟨S_, .f32⟩
  | .hbm, ⟨54, _⟩ => ⟨S100000x5, .f32⟩
  | .hbm, ⟨55, _⟩ => ⟨S1600000x1, .i32⟩
  | .hbm, ⟨56, _⟩ => ⟨S100000x5, .f32⟩
  | .hbm, ⟨57, _⟩ => ⟨S1x128, .f32⟩
  | .hbm, ⟨58, _⟩ => ⟨S100000x1, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x1, .f32⟩
  | .hbm, ⟨68, _⟩ => ⟨S1600000x1, .f32⟩
  | .hbm, ⟨69, _⟩ => ⟨S_, .f32⟩
  | .hbm, ⟨70, _⟩ => ⟨S100000x1, .f32⟩
  | .hbm, ⟨71, _⟩ => ⟨S1600000x1, .i32⟩
  | .hbm, ⟨72, _⟩ => ⟨S100000x1, .f32⟩
  | .hbm, ⟨73, _⟩ => ⟨S100000x1, .f32⟩
  | .hbm, ⟨74, _⟩ => ⟨S100000x1, .f32⟩
  | .hbm, ⟨75, _⟩ => ⟨S1x1, .f32⟩
  | .hbm, ⟨76, _⟩ => ⟨S100000x1, .f32⟩
  | .hbm, ⟨77, _⟩ => ⟨S100000x1, .f32⟩
  | .local _ .vmem, ⟨0, _⟩ => ⟨S5000x5, .f32⟩
  | .local _ .vmem, ⟨1, _⟩ => ⟨S5000x5, .f32⟩
  | .local _ .vmem, ⟨2, _⟩ => ⟨S5000x5, .f32⟩
  | .local _ .vmem, ⟨3, _⟩ => ⟨S5000x5, .f32⟩
  | .local _ .vmem, ⟨4, _⟩ => ⟨S5000x1, .f32⟩
  | .local _ .vmem, ⟨5, _⟩ => ⟨S5000x1, .f32⟩
  | .local _ .vmem, ⟨6, _⟩ => ⟨S5x128, .f32⟩
  | .local _ .vmem, ⟨7, _⟩ => ⟨S1x128, .f32⟩
  | .local _ .vmem, ⟨8, _⟩ => ⟨S128x1, .f32⟩
  | .local _ .vmem, ⟨9, _⟩ => ⟨S5000x1, .f32⟩
  | .local _ .vmem, ⟨10, _⟩ => ⟨S5000x1, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_8 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  bcast_S1600000x1_S1600000x5_0_1 : S1600000x1.BroadcastsInDim S1600000x5 (![0, 1] : Fin 2 → Fin S1600000x5.rank)
  bcast_S_S100000x5 : S_.BroadcastsInDim S100000x5 (![] : Fin 0 → Fin S100000x5.rank)
  shapeCasts_S128_S1x128 : S128.ShapeCasts S1x128
  inb_S5000x5_S5000x5_0_0 : ∀ a, (![0, 0] : Fin 2 → Nat) a + S5000x5.size a ≤ S5000x5.size a
  h_S5000x5 : 0 < S5000x5.numel
  shapeCasts_S5000x5_S5000x5 : S5000x5.ShapeCasts S5000x5
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x5 : S5000x1.Broadcasts S5000x5
  bitsLt_bf16_f32 : FTy.bits .bf16 < FTy.bits .f32
  inb_S5x128_S5x128_0_0 : ∀ a, (![0, 0] : Fin 2 → Nat) a + S5x128.size a ≤ S5x128.size a
  h_S5x128 : 0 < S5x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  bcast_S_S100000x1 : S_.BroadcastsInDim S100000x1 (![] : Fin 0 → Fin S100000x1.rank)
  shapeCasts_S1_S1x1 : S1.ShapeCasts S1x1
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x5_S1600000x1_S1600000x5_1_0_n_n_0_1_15_wf : GatherDims.WF S100000x5 S1600000x1 S1600000x5 [1] [0] [] [0] [] 1 ![1, 5]
  scatter_S100000x5_S1600000x1_S1600000x5_1_0_0_1_wf : ScatterDims.WF S100000x5 S1600000x1 S1600000x5 [1] [0] [0] 1
  dot_S5000x5_S5x128_S5000x128_1_0_0_1_n_n_wf : DotDims.WF S5000x5 S5x128 S5000x128 [1] [0] [0] [1] [] []
  dot_S5000x128_S128x1_S5000x1_1_0_0_1_n_n_wf : DotDims.WF S5000x128 S128x1 S5000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S100000x5.size a
  hwx0_0 : ∀ i : grid0.Coords, EltTy.bits .f32 = 32 ∨ (Rect.block (s := S100000x5) S5000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x5.size a ≤ S100000x5.size a
  hwx0_1 : ∀ i : grid0.Coords, EltTy.bits .f32 = 32 ∨ (Rect.block (s := S100000x5) S5000x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x128.size a ≤ S5x128.size a
  hwx0_3 : ∀ i : grid0.Coords, EltTy.bits .f32 = 32 ∨ (Rect.block (s := S5x128) S5x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x1.size a ≤ S100000x1.size a
  hwx0_6 : ∀ i : grid0.Coords, EltTy.bits .f32 = 32 ∨ (Rect.block (s := S100000x1) S5000x1.size (cc0_transform_6 i) (hinb0_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x5_S1600000x1_S1600000x5_1_0_n_n_0_1_15 : GatherDims S100000x5 S1600000x1 S1600000x5 where
  offsetDims := [1]
  collapsedSliceDims := [0]
  operandBatchingDims := []
  startIndicesBatchingDims := []
  startIndexMap := [0]
  indexVectorDim := 1
  sliceSizes := ![1, 5]
  wf := gather_S100000x5_S1600000x1_S1600000x5_1_0_n_n_0_1_15_wf
def scatter_S100000x5_S1600000x1_S1600000x5_1_0_0_1 : ScatterDims S100000x5 S1600000x1 S1600000x5 where
  updateWindowDims := [1]
  insertedWindowDims := [0]
  scatterDimsToOperandDims := [0]
  indexVectorDim := 1
  wf := scatter_S100000x5_S1600000x1_S1600000x5_1_0_0_1_wf
def dot_S5000x5_S5x128_S5000x128_1_0_0_1_n_n : DotDims S5000x5 S5x128 S5000x128 where
  lhsContracting := [1]
  rhsContracting := [0]
  lhsNonContracting := [0]
  rhsNonContracting := [1]
  lhsBatch := []
  rhsBatch := []
  wf := dot_S5000x5_S5x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S5000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S5x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S5000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x5 : Shape := ⟨2, ![100000, 5]⟩
abbrev S2x1600000 : Shape := ⟨2, ![2, 1600000]⟩
abbrev S5x128 : Shape := ⟨2, ![5, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S2x1600000, .i32⟩
  | .hbm, ⟨2, _⟩ => ⟨S5x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x1, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x1, .f32⟩
  | .hbm, ⟨106, _⟩ => ⟨S1600000x1, .f32⟩
  | .hbm, ⟨107, _⟩ => ⟨S1600000x1, .f32⟩
  | .hbm, ⟨108, _⟩ => ⟨S_, .f32⟩
  | .hbm, ⟨109, _⟩ => ⟨S100000x1, .f32⟩
  | .hbm, ⟨110, _⟩ => ⟨S1600000x1, .i32⟩
  | .hbm, ⟨111, _⟩ => ⟨S100000x1, .f32⟩
  | .hbm, ⟨112, _⟩ => ⟨S100000, .f32⟩
  | .hbm, ⟨113, _⟩ => ⟨S100000x1, .f32⟩
  | .hbm, ⟨114, _⟩ => ⟨S100000x1, .f32⟩
  | .hbm, ⟨115, _⟩ => ⟨S100000x1, .f32⟩
  | .hbm, ⟨116, _⟩ => ⟨S1x1, .f32⟩
  | .hbm, ⟨117, _⟩ => ⟨S100000x1, .f32⟩
  | .hbm, ⟨118, _⟩ => ⟨S100000x1, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x5_S5x128_S100000x128_1_0_0_1_n_n_wf : DotDims.WF S100000x5 S5x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1

variable [Facts₀]

def dot_S100000x5_S5x128_S100000x128_1_0_0_1_n_n : DotDims S100000x5 S5x128 S100000x128 where
  lhsContracting := [1]
  rhsContracting := [0]
  lhsNonContracting := [0]
  rhsNonContracting := [1]
  lhsBatch := []
  rhsBatch := []
  wf := dot_S100000x5_S5x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

class Facts : Prop extends Facts₀ where

variable [Facts]
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.KernelBody.lean ====
/-
  What the fused layer-one body computes on one block of 5000 nodes, entry by entry.

  From the block of aggregated features `a`, the block of raw features `xb`, the column `d` of `dinv²`, the weights
  `w1` (5 × 128), the bias row `b` and the weights `w2` (128 × 1):
    combined(p, k) = a(p, k) + xb(p, k) · d(p)
    hidden(p, j)   = max( Σ_k combined(p, k) · w1(k, j) + b(j), 0 )
    out(p)         = Σ_j hidden(p, j) · w2(j)
  The two contractions are matrix products into a zero accumulator; the narrowing of their operands to a shorter float
  format is the identity on the extended reals.
-/
import proofs.«172965_j60052232732743_2_alg».proof.Proof.Gen.KernelIdeal.Skeleton
import proofs.«172965_j60052232732743_2_alg».proof.Proof.LibMatProd
import proofs.«172965_j60052232732743_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn

open Idealize.ShloMosaic Idealize.ShloMosaic.ValueIdx Cert.KernelIdeal Cert.KernelIdeal.Gen

/-- The aggregated features plus the node's own features scaled by `dinv²`. -/
def combine (a xb : FVec Ideal S5000x5 .f32) (d : FVec Ideal S5000x1 .f32) : FVec Ideal S5000x5 .f32 :=
  addf (shapeCast S5000x5 a shapeCasts_S5000x5_S5000x5)
    (mulf xb (broadcastTo S5000x5 (shapeCast S5000x1 d shapeCasts_S5000x1_S5000x1) broadcasts_S5000x1_S5000x5))

theorem combine_apply (a xb : FVec Ideal S5000x5 .f32) (d : FVec Ideal S5000x1 .f32) (p : Fin 5000) (k : Fin 5) :
    combine a xb d (ix2 p k) = a (ix2 p k) + xb (ix2 p k) * d (ix2 p (0 : Fin 1)) := by
  unfold combine
  rw [shapeCast_self, shapeCast_self, addf_apply, mulf_apply]
  exact congrArg (fun z => a (ix2 p k) + xb (ix2 p k) * z)
    (Cert.Keepdims.broadcastTo_a1_ab_apply d broadcasts_S5000x1_S5000x5 p k)

/-- The hidden layer of the block: the combined features through `w1`, plus the bias row, clipped at zero. -/
def hiddenBlock (a xb : FVec Ideal S5000x5 .f32) (d : FVec Ideal S5000x1 .f32) (w1 : FVec Ideal S5x128 .f32)
    (b : FVec Ideal S1x128 .f32) : FVec Ideal S5000x128 .f32 :=
  maximumf (addf (matmul dot_S5000x5_S5x128_S5000x128_1_0_0_1_n_n none (truncf .bf16 (combine a xb d) bitsLt_bf16_f32)
        (truncf .bf16 w1 bitsLt_bf16_f32) (constant S5000x128 .f32 0x00000000#32))
      (broadcastTo S5000x128 (shapeCast S1x128 b shapeCasts_S1x128_S1x128) broadcasts_S1x128_S5000x128))
    (broadcast S5000x128 (Scalar.ofBits .f32 0x00000000#32))

theorem hiddenBlock_apply (a xb : FVec Ideal S5000x5 .f32) (d : FVec Ideal S5000x1 .f32) (w1 : FVec Ideal S5x128 .f32)
    (b : FVec Ideal S1x128 .f32) (p : Fin 5000) (j : Fin 128) :
    hiddenBlock a xb d w1 b (ix2 p j)
      = max ((∑ k : Fin 5, combine a xb d (ix2 p k) * w1 (ix2 k j)) + b (ix2 (0 : Fin 1) j)) 0 := by
  unfold hiddenBlock
  rw [maximumf_apply, addf_apply, broadcast_apply, shapeCast_self]
  have hd : dot_S5000x5_S5x128_S5000x128_1_0_0_1_n_n = DotDims.plain 5000 5 128 := rfl
  rw [hd]
  have hm := Cert.MatProd.matmul_plain_zero_apply (M := 5000) (K := 5) (N := 128) none
    (truncf .bf16 (combine a xb d) bitsLt_bf16_f32) (truncf .bf16 w1 bitsLt_bf16_f32) p j
  have hb := broadcastTo_1b_ab_apply b broadcasts_S1x128_S5000x128 p j
  refine (congrArg₂ (fun u v => max (u + v) _) hm hb).trans ?_
  show max _ (Ideal.ofBits .f32 0x00000000#32) = _
  rw [Ideal.ofBits_zero_f32]
  rfl

/-- The block's output column: the hidden layer through `w2`. -/
def bodyOut (a xb : FVec Ideal S5000x5 .f32) (d : FVec Ideal S5000x1 .f32) (w1 : FVec Ideal S5x128 .f32)
    (b : FVec Ideal S1x128 .f32) (w2 : FVec Ideal S128x1 .f32) : FVec Ideal S5000x1 .f32 :=
  matmul dot_S5000x128_S128x1_S5000x1_1_0_0_1_n_n none (truncf .bf16 (hiddenBlock a xb d w1 b) bitsLt_bf16_f32)
    (truncf .bf16 w2 bitsLt_bf16_f32) (constant S5000x1 .f32 0x00000000#32)

theorem bodyOut_apply (a xb : FVec Ideal S5000x5 .f32) (d : FVec Ideal S5000x1 .f32) (w1 : FVec Ideal S5x128 .f32)
    (b : FVec Ideal S1x128 .f32) (w2 : FVec Ideal S128x1 .f32) (p : Fin 5000) (u : Fin 1) :
    bodyOut a xb d w1 b w2 (ix2 p u) = ∑ j : Fin 128, hiddenBlock a xb d w1 b (ix2 p j) * w2 (ix2 j u) := by
  unfold bodyOut
  have hd : dot_S5000x128_S128x1_S5000x1_1_0_0_1_n_n = DotDims.plain 5000 128 1 := rfl
  rw [hd]
  exact Cert.MatProd.matmul_plain_zero_apply (M := 5000) (K := 128) (N := 1) none
    (truncf .bf16 (hiddenBlock a xb d w1 b) bitsLt_bf16_f32) (truncf .bf16 w2 bitsLt_bf16_f32) p u

/-- The same three steps on WHOLE arrays of 100000 nodes: what the output array holds at node `i 0` when every block
    is the matching piece of these arrays. -/
def blockSpec (X A : FVec Ideal S100000x5 .f32) (D : FVec Ideal S100000x1 .f32) (W1 : FVec Ideal S5x128 .f32)
    (B : FVec Ideal S1x128 .f32) (W2 : FVec Ideal S128x1 .f32) : FVec Ideal S100000x1 .f32 :=
  fun i => ∑ j : Fin 128,
    max ((∑ k : Fin 5, (A (ix2 (i 0) k) + X (ix2 (i 0) k) * D (ix2 (i 0) (0 : Fin 1))) * W1 (ix2 k j))
      + B (ix2 (0 : Fin 1) j)) 0 * W2 (ix2 j (i 1))

/-- A block whose row `p` is row `r p` of the whole arrays computes row `r p` of the whole-array function. -/
theorem bodyOut_block (a xb : FVec Ideal S5000x5 .f32) (d : FVec Ideal S5000x1 .f32) (w1 : FVec Ideal S5x128 .f32)
    (b : FVec Ideal S1x128 .f32) (w2 : FVec Ideal S128x1 .f32)
    (X A : FVec Ideal S100000x5 .f32) (D : FVec Ideal S100000x1 .f32) (W1 : FVec Ideal S5x128 .f32)
    (B : FVec Ideal S1x128 .f32) (W2 : FVec Ideal S128x1 .f32) (r : Fin 5000 → Fin 100000)
    (ha : ∀ p k, a (ix2 p k) = A (ix2 (r p) k)) (hx : ∀ p k, xb (ix2 p k) = X (ix2 (r p) k))
    (hd : ∀ p, d (ix2 p (0 : Fin 1)) = D (ix2 (r p) (0 : Fin 1)))
    (hw1 : ∀ k j, w1 (ix2 k j) = W1 (ix2 k j)) (hb : ∀ j, b (ix2 (0 : Fin 1) j) = B (ix2 (0 : Fin 1) j))
    (hw2 : ∀ j u, w2 (ix2 j u) = W2 (ix2 j u)) (p : Fin 5000) (u : Fin 1) :
    bodyOut a xb d w1 b w2 (ix2 p u) = blockSpec X A D W1 B W2 (ix2 (r p) u) := by
  rw [bodyOut_apply]
  show _ = ∑ j : Fin 128,
    max ((∑ k : Fin 5, (A (ix2 (r p) k) + X (ix2 (r p) k) * D (ix2 (r p) (0 : Fin 1))) * W1 (ix2 k j))
      + B (ix2 (0 : Fin 1) j)) 0 * W2 (ix2 j u)
  refine Finset.sum_congr rfl fun j _ => ?_
  rw [hiddenBlock_apply, hw2, hb]
  refine congrArg (fun z => max (z + B (ix2 (0 : Fin 1) j)) 0 * W2 (ix2 j u)) ?_
  refine Finset.sum_congr rfl fun k _ => ?_
  rw [combine_apply, ha, hx, hd, hw1]

/-- The body's stored value is that composition of its loaded blocks. -/
theorem pay_eq (v0 v2 : Vec Ideal S5000x5 .f32) (v3 : Vec Ideal S5000x1 .f32) (v9 : Vec Ideal S5x128 .f32)
    (v12 : Vec Ideal S1x128 .f32) (v19 : Vec Ideal S128x1 .f32) :
    k0_pay1 (F := Ideal) v0 v2 v3 v9 v12 v19 = bodyOut v0 v2 v3 v9 v12 v19 := rfl

end Cert.Gcn

end
-- ==== Proof.KernelArray.lean ====
/-
  From the blocks to the array: what the region's output array holds after the run.

  The grid has 20 points; point `t` works on the rows `5000·t … 5000·t + 4999` of the node arrays (features,
  aggregated features, `dinv²`, output) and on the whole of the two weight matrices and the bias row. So what point `t`
  writes back is block `t` of ONE whole-array function of the arrays the region found, the 20 blocks tile the output
  array, and the array ends holding that function.
-/
import proofs.«172965_j60052232732743_2_alg».proof.Proof.Gen.KernelIdeal.Frame
import proofs.«172965_j60052232732743_2_alg».proof.Proof.KernelBody
import Idealize.ShloMosaic.Lib.Pipeline.Value

set_option maxRecDepth 16384

noncomputable section

open scoped BigOperators

namespace Cert.Gcn

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem off_zero : (![0, 0] : Fin 2 → Nat) = fun _ => 0 := funext fun a => by fin_cases a <;> rfl

/-- The printed index maps, decided over the 20 grid points: the four node windows sit at block row `t`, column block
    0; the weights and the bias row at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s blocks is row `5000·t + p` of the arrays. -/
def rowAt (t : Fin cfg0.N) (p : Fin 5000) : Fin 100000 :=
  ⟨t.val * 5000 + p.val, by have := p.isLt; have ht : t.val < 20 := lt_of_lt_of_eq t.isLt N_0; omega⟩

/-- WHAT THE BODY LEAVES AT POINT `t`, for ANY six arrays whose blocks it is given, is block `t` of the whole-array
    function of those arrays. -/
theorem out_block (t : Fin cfg0.N) (A0 A1 : FVec Ideal S100000x5 .f32) (A2 : FVec Ideal S100000x1 .f32)
    (A3 : FVec Ideal S5x128 .f32) (A4 : FVec Ideal S1x128 .f32) (A5 : FVec Ideal S128x1 .f32) :
    (cfg0.win 6).cut (grid0.coords t)
        (out0_6 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (blockSpec A0 A1 A2 A3 A4 A5) := by
  unfold out0_6
  rw [View.canon_unit_zero off_zero]
  simp only [View.ld_unit_zero (S := S5000x5) off_zero, View.ld_unit_zero (S := S5000x1) off_zero,
    View.ld_unit_zero (S := S5x128) off_zero, View.ld_unit_zero (S := S1x128) off_zero,
    View.ld_unit_zero (S := S128x1) off_zero]
  rw [pay_eq]
  obtain ⟨e00, e01, e10, e11, e20, e21, e30, e31, e40, e41, e50, e51, e60, e61⟩ := index_facts t
  funext y
  obtain ⟨p, u, rfl⟩ : ∃ (p : Fin 5000) (u : Fin 1), y = ix2 p u := ⟨y 0, y 1, eq_ix2 y⟩
  have hu : u.val = 0 := by omega
  have hemb : ((cfg0.win 6).blk t).view.emb (ix2 p u) = ix2 (rowAt t p) u := by
    funext a; apply Fin.ext
    match a with
    | ⟨0, _⟩ => show win0_6.index t (0 : Fin 2) * 5000 + 1 * p.val = t.val * 5000 + p.val; omega
    | ⟨1, _⟩ => show win0_6.index t (1 : Fin 2) * 1 + 1 * u.val = u.val; omega
  show bodyOut (((cfg0.win 1).blk t).view.read (Elt Ideal) A1) (((cfg0.win 0).blk t).view.read (Elt Ideal) A0)
      (((cfg0.win 2).blk t).view.read (Elt Ideal) A2) (((cfg0.win 3).blk t).view.read (Elt Ideal) A3)
      (((cfg0.win 4).blk t).view.read (Elt Ideal) A4) (((cfg0.win 5).blk t).view.read (Elt Ideal) A5) (ix2 p u)
    = blockSpec A0 A1 A2 A3 A4 A5 (((cfg0.win 6).blk t).view.emb (ix2 p u))
  rw [hemb]
  refine bodyOut_block _ _ _ _ _ _ A0 A1 A2 A3 A4 A5 (rowAt t) ?_ ?_ ?_ ?_ ?_ ?_ p u
  · intro p k
    show A1 (((cfg0.win 1).blk t).view.emb (ix2 p k)) = A1 (ix2 (rowAt t p) k)
    refine congrArg A1 (funext fun a => Fin.ext ?_)
    match a with
    | ⟨0, _⟩ => show win0_1.index t (0 : Fin 2) * 5000 + 1 * p.val = t.val * 5000 + p.val; omega
    | ⟨1, _⟩ => show win0_1.index t (1 : Fin 2) * 5 + 1 * k.val = k.val; omega
  · intro p k
    show A0 (((cfg0.win 0).blk t).view.emb (ix2 p k)) = A0 (ix2 (rowAt t p) k)
    refine congrArg A0 (funext fun a => Fin.ext ?_)
    match a with
    | ⟨0, _⟩ => show win0_0.index t (0 : Fin 2) * 5000 + 1 * p.val = t.val * 5000 + p.val; omega
    | ⟨1, _⟩ => show win0_0.index t (1 : Fin 2) * 5 + 1 * k.val = k.val; omega
  · intro p
    show A2 (((cfg0.win 2).blk t).view.emb (ix2 p (0 : Fin 1))) = A2 (ix2 (rowAt t p) (0 : Fin 1))
    refine congrArg A2 (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  · intro k j
    show A3 (((cfg0.win 3).blk t).view.emb (ix2 k j)) = A3 (ix2 k j)
    refine congrArg A3 (funext fun a => Fin.ext ?_)
    match a with
    | ⟨0, _⟩ => show win0_3.index t (0 : Fin 2) * 5 + 1 * k.val = k.val; omega
    | ⟨1, _⟩ => show win0_3.index t (1 : Fin 2) * 128 + 1 * j.val = j.val; omega
  · intro j
    show A4 (((cfg0.win 4).blk t).view.emb (ix2 (0 : Fin 1) j)) = A4 (ix2 (0 : Fin 1) j)
    refine congrArg A4 (funext fun a => Fin.ext ?_)
    match a with
    | ⟨0, _⟩ => show win0_4.index t (0 : Fin 2) * 1 + 1 * 0 = 0; omega
    | ⟨1, _⟩ => show win0_4.index t (1 : Fin 2) * 128 + 1 * j.val = j.val; omega
  · intro j u
    show A5 (((cfg0.win 5).blk t).view.emb (ix2 j u)) = A5 (ix2 j u)
    refine congrArg A5 (funext fun a => Fin.ext ?_)
    match a with
    | ⟨0, _⟩ => show win0_5.index t (0 : Fin 2) * 128 + 1 * j.val = j.val; omega
    | ⟨1, _⟩ => show win0_5.index t (1 : Fin 2) * 1 + 1 * u.val = u.val; omega

/-- The whole-array function of the arrays the region finds (window by window). -/
abbrev regionOut (c : Dev nD) : FVec Ideal S100000x1 .f32 :=
  blockSpec (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- WHAT POINT `t` WRITES BACK is block `t` of that function. -/
theorem flushed_eq (c : Dev nD) (t : Fin cfg0.N) :
    (dats m 0 c).flushed 6 t = ((cfg0.win 6).blk t).view.read (Elt Ideal) (regionOut m c) := by
  show (cfg0.win 6).cut (grid0.coords t) ((dats m 0 c).after 6 t) = _
  rw [after0_6]
  exact out_block t (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- An index of the output array is in point `t`'s block iff each coordinate is in the block's range on its axis. -/
theorem mem_block (t : Fin cfg0.N) (i : S100000x1.Idx) :
    i ∈ ((cfg0.win 6).blk t).view.set ↔ ∀ a : Fin 2, win0_6.index t a * S5000x1.size a ≤ (i a).val
      ∧ (i a).val < win0_6.index t a * S5000x1.size a + S5000x1.size a := by
  show i ∈ ((View.whole main_v42).slice (win0_6.rect t)).set ↔ _
  rw [View.set_slice_whole, Rect.mem_set_unit]
  exact Iff.rfl

/-- The 20 blocks tile the output array: node `n` is in the block of point `n / 5000`. -/
theorem covered (i : S100000x1.Idx) :
    ∃ t : Fin cfg0.N, (cfg0.win 6).flush t = true ∧ i ∈ ((cfg0.win 6).blk t).view.set := by
  have hi0 : (i 0).val < 100000 := (i 0).isLt
  have hi1 : (i 1).val < 1 := (i 1).isLt
  have hN : cfg0.N = 20 := N_0
  refine ⟨⟨(i 0).val / 5000, by rw [hN]; omega⟩, flush0_6 _, ?_⟩
  rw [mem_block]
  obtain ⟨-, -, -, -, -, -, -, -, -, -, -, -, e60, e61⟩ := index_facts ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e60]
    show (i 0).val / 5000 * 5000 ≤ (i 0).val ∧ (i 0).val < (i 0).val / 5000 * 5000 + 5000
    omega
  | ⟨1, _⟩ =>
    show win0_6.index _ (1 : Fin 2) * 1 ≤ (i 1).val ∧ (i 1).val < win0_6.index _ (1 : Fin 2) * 1 + 1
    rw [e61]
    omega

/-- THE OUTPUT ARRAY after the run. -/
theorem region_final (c : Dev nD) : (dats m 0 c).arrAt 6 cfg0.N = regionOut m c :=
  (dats m 0 c).arrAt_eq_of_cover 6 (regionOut m c) (fun t _ => flushed_eq m c t) covered

end Cert.Gcn

end
-- ==== Proof.LibScatterAddVec.lean ====
/-
  An accumulating scatter of scalars into a vector, read at an entry.

  The operand is a vector of `N` entries, the updates a vector of `E` scalars, and update `e` is added onto the operand
  entry whose number is the `e`-th scatter index (one signed integer per update, held as an `E × 1` array); an update
  whose index is negative or `≥ N` is dropped. On the extended reals the result at `n` is therefore the operand's entry
  plus the sum of the updates `e` whose index is `n`.

  Everything is general in the two extents and in the width of the index integers.
-/
import Idealize.ShloMosaic.PureOps.Ideal
import Idealize.ShloMosaic.PureOps.Contract
import Idealize.ShloMosaic.Lib.ValueIdx

noncomputable section

namespace LibScatterAddVec

open Idealize.ShloMosaic Idealize.ShloMosaic.ValueIdx

variable {N E w : Nat}

/-- The dimension numbers of a scalar scatter into a vector: operand `[N]`, one index per update held as `[E, 1]`,
    updates `[E]`; no window axis, and the operand's one axis is the one the index names. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the `e`-th scatter index, read signed. -/
theorem start_at (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- There is no window axis: the window coordinate is zero. -/
theorem window_at (e : Fin E) : (vecDims N E wf).window (ix1 e) 0 = 0 := by
  unfold ScatterDims.window
  rw [dif_neg (show ¬ (0 : Fin 1) ∈ (vecDims N E wf).sKept from by
    show ¬ (0 : Fin 1) ∈ ([] : List (Fin 1))
    exact List.not_mem_nil)]

/-- WHERE AN UPDATE LANDS: update `e` lands on operand entry `n` exactly when the `e`-th index is `n`. -/
theorem resultIdx?_iff (idx : IVec ⟨2, ![E, 1]⟩ w) (e : Fin E) (n : Fin N) :
    (vecDims N E wf).resultIdx? (ix1 e) idx = some (ix1 n)
      ↔ (idx (ix2 e (0 : Fin 1))).toInt = (n.val : Int) := by
  have hs0 := start_at wf idx e
  have hw0 := window_at wf e
  unfold ScatterDims.resultIdx?
  constructor
  · intro H
    split at H
    · rename_i h
      have H' := Option.some.inj H
      have h0 : ((vecDims N E wf).start (ix1 e) idx 0 + (vecDims N E wf).window (ix1 e) 0).toNat = n.val :=
        congrArg (fun f => (f 0).val) H'
      have hh0 := (h 0).1
      rw [hs0, hw0] at h0 hh0
      omega
    · exact absurd H (by simp)
  · intro h0
    have hn : n.val < N := n.isLt
    have h : ∀ a, 0 ≤ (vecDims N E wf).start (ix1 e) idx a + (vecDims N E wf).window (ix1 e) a
        ∧ (vecDims N E wf).start (ix1 e) idx a + (vecDims N E wf).window (ix1 e) a
          < (⟨1, ![N]⟩ : Shape).size a :=
      Fin.forall_fin_one.2 ⟨by rw [hs0, hw0, h0]; omega, by
        rw [hs0, hw0, h0]
        show (n.val : Int) + ((0 : Nat) : Int) < ((N : Nat) : Int)
        omega⟩
    rw [dif_pos h]
    refine congrArg some (funext ?_)
    refine Fin.forall_fin_one.2 (Fin.ext ?_)
    show ((vecDims N E wf).start (ix1 e) idx 0 + (vecDims N E wf).window (ix1 e) 0).toNat = n.val
    rw [hs0, hw0, h0]; omega

/-- THE SCALAR SCATTER READ AT AN ENTRY, on the extended reals: the operand's entry plus the updates whose index is
    `n`. -/
theorem hostScatterAdd_vec (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : Int) then upd (ix1 e) else 0 := by
  unfold Ideal.hostScatterAdd
  refine congrArg (x (ix1 n) + ·) ?_
  rw [Finset.sum_filter, sum_idx1]
  refine Finset.sum_congr rfl fun e _ => ?_
  simp only [resultIdx?_iff]

/-- The same for the host operation as a program prints it, read at the exact instance. -/
theorem scatterAdd_vec (x : FVec Ideal ⟨1, ![N]⟩ .f32) (idx : IVec ⟨2, ![E, 1]⟩ w)
    (upd : FVec Ideal ⟨1, ![E]⟩ .f32) (n : Fin N) :
    Host.scatterAdd (F := Ideal) (vecDims N E wf) x idx upd (ix1 n)
      = x (ix1 n) + ∑ e : Fin E, if (idx (ix2 e (0 : Fin 1))).toInt = (n.val : Int) then upd (ix1 e) else 0 :=
  hostScatterAdd_vec wf x idx upd n

end LibScatterAddVec

end
-- ==== Proof.LibAggregateSwap.lean ====
/-
  Aggregating before or after a linear map.

  A graph layer adds, into each node, the rows of its neighbours scaled edge by edge, plus the node's own row scaled
  by a number of the node. When the rows are then pushed through a linear map (a contraction against one column of a
  weight matrix), it does not matter whether the map is applied to every row first and the results aggregated, or the
  rows are aggregated first and the map applied once: both are the same double sum, re-associated. The law needs
  distributivity, so it is proved on the real numbers and carried to the extended reals through the coercion, for
  families all of whose entries are real.

  General in the edge type, the feature type and the selection of the edges that reach the node.
-/
import Mathlib.Data.EReal.Inv
import Mathlib.Analysis.SpecialFunctions.Pow.Real
import Mathlib.MeasureTheory.Integral.IntervalIntegral.Basic
import Mathlib.Algebra.BigOperators.Group.Finset.Basic

open scoped BigOperators

namespace LibAggregateSwap

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with a choice between two reals. -/
theorem coe_ite (p : Prop) [Decidable p] (a b : ℝ) :
    ((if p then a else b : ℝ) : EReal) = if p then (a : EReal) else (b : EReal) := by
  split <;> rfl

/-- On the reals: the contraction over the features `k` of (the selected edges' rows scaled by `c`, summed, plus the
    node's own row scaled by `d`) against `w` is the selected edges' contracted rows scaled and summed, plus the node's
    own contracted row scaled. -/
theorem swap_real {E K : Type*} [Fintype E] [Fintype K] (P : E → Prop) [DecidablePred P]
    (xs : E → K → ℝ) (xn w : K → ℝ) (c : E → ℝ) (d : ℝ) :
    ∑ k, ((0 + ∑ e, if P e then xs e k * c e else 0) + xn k * d) * w k
      = (0 + ∑ e, if P e then (∑ k, xs e k * w k) * c e else 0) + (∑ k, xn k * w k) * d := by
  simp only [zero_add, add_mul, Finset.sum_add_distrib, Finset.sum_mul]
  congr 1
  · rw [Finset.sum_comm]
    refine Finset.sum_congr rfl fun e _ => ?_
    by_cases h : P e
    · simp only [h, if_true]
      exact Finset.sum_congr rfl fun k _ => by ring
    · simp only [h, if_false, zero_mul, Finset.sum_const_zero]
  · exact Finset.sum_congr rfl fun k _ => by ring

/-- The same law on the extended reals, for real entries. -/
theorem swap_ereal {E K : Type*} [Fintype E] [Fintype K] (P : E → Prop) [DecidablePred P]
    (xs : E → K → ℝ) (xn w : K → ℝ) (c : E → ℝ) (d : ℝ) :
    ∑ k, (((0 : EReal) + ∑ e, if P e then (xs e k : EReal) * (c e : EReal) else 0) + (xn k : EReal) * (d : EReal))
        * (w k : EReal)
      = ((0 : EReal) + ∑ e, if P e then (∑ k, (xs e k : EReal) * (w k : EReal)) * (c e : EReal) else 0)
        + (∑ k, (xn k : EReal) * (w k : EReal)) * (d : EReal) := by
  have L : ((∑ k, ((0 + ∑ e, if P e then xs e k * c e else 0) + xn k * d) * w k : ℝ) : EReal)
      = ∑ k, (((0 : EReal) + ∑ e, if P e then (xs e k : EReal) * (c e : EReal) else 0) + (xn k : EReal) * (d : EReal))
        * (w k : EReal) := by
    simp only [coe_sum, EReal.coe_add, EReal.coe_mul, EReal.coe_zero, coe_ite]
  have R : (((0 + ∑ e, if P e then (∑ k, xs e k * w k) * c e else 0) + (∑ k, xn k * w k) * d : ℝ) : EReal)
      = ((0 : EReal) + ∑ e, if P e then (∑ k, (xs e k : EReal) * (w k : EReal)) * (c e : EReal) else 0)
        + (∑ k, (xn k : EReal) * (w k : EReal)) * (d : EReal) := by
    simp only [coe_sum, EReal.coe_add, EReal.coe_mul, EReal.coe_zero, coe_ite]
  rw [← L, ← R, swap_real]

end LibAggregateSwap
-- ==== Proof.Common.lean ====
/-
  What the two programs share: the edge list read as sources and targets, the node degrees, the symmetric
  normalisation, and the per-edge coefficients.

  An edge `e` goes from node `src e` to node `dst e` (two rows of one integer array). The degree of a node is one
  (its self-loop) plus the number of edges that end at it; `dinv n = deg(n)^(-1/2)`; the coefficient of an edge is
  `dinv (src e) · dinv (dst e)`. Both programs compute these by the same operations, so they are named once here, and
  what the certificate needs of them is only this: every `dinv n` and every coefficient is a REAL number (the degree
  is a positive real, so its inverse square root is finite).
-/
import proofs.«172965_j60052232732743_2_alg».proof.Proof.Gen.KernelIdeal
import proofs.«172965_j60052232732743_2_alg».proof.Proof.LibScatterAddVec
import proofs.«172965_j60052232732743_2_alg».proof.Proof.LibAggregateSwap
import Idealize.ShloMosaic.PureOps.Ideal.Laws
import Idealize.ShloMosaic.Lib.ValueIdx

noncomputable section

namespace Cert.Gcn

open Idealize.ShloMosaic Idealize.ShloMosaic.ValueIdx Cert.KernelIdeal Cert.KernelIdeal.Facts₀ Cert.KernelIdeal.Facts

/-- The edge list: row 0 the sources, row 1 the targets. -/
abbrev EdgeArr := (⟨S2x1600000, .i32⟩ : BufTy).Contents (Elt Ideal)
/-- One integer word per edge. -/
abbrev EdgeWords := (⟨S1600000, .i32⟩ : BufTy).Contents (Elt Ideal)
/-- The same laid out as a column. -/
abbrev EdgeCol := (⟨S1600000x1, .i32⟩ : BufTy).Contents (Elt Ideal)

/-- The sources of the edges. -/
noncomputable def srcWords (ei : EdgeArr) : EdgeWords :=
  shapeCast _ (extractStridedSlice S1x1600000 ![0, 0] ei slices_S2x1600000_S1x1600000_0_0) shapeCasts_S1x1600000_S1600000

/-- The targets of the edges. -/
noncomputable def dstWords (ei : EdgeArr) : EdgeWords :=
  shapeCast _ (extractStridedSlice S1x1600000 ![1, 0] ei slices_S2x1600000_S1x1600000_1_0) shapeCasts_S1x1600000_S1600000

/-- A node number counted from the end when negative: `v + 100000` where `v < 0`. -/
noncomputable def wrap (v : EdgeWords) : EdgeWords :=
  select (cmpi .slt v (broadcastInDim S1600000 ![] bcast_S_S1600000 (constantI S_ 32 0#32)))
    (addi v (broadcastInDim S1600000 ![] bcast_S_S1600000 (constantI S_ 32 100000#32))) v

/-- Words laid out as a column of start indices. -/
noncomputable def asCol (v : EdgeWords) : EdgeCol := broadcastInDim S1600000x1 ![0] bcast_S1600000_S1600000x1_0 v

/-- `deg(n)^(-1/2)`: one for the self-loop plus one per edge ending at `n`, then the inverse square root. -/
noncomputable def dinvArr (ei : EdgeArr) : FVec Ideal S100000 .f32 :=
  Host.rsqrt (addf (Host.scatterAdd scatter_S100000_S1600000x1_S1600000_n_0_0_1
      (broadcastInDim S100000 ![] bcast_S_S100000 (constant S_ .f32 0x00000000#32))
      (asCol (dstWords ei))
      (broadcastInDim S1600000 ![] bcast_S_S1600000 (constant S_ .f32 0x3F800000#32)))
    (broadcastInDim S100000 ![] bcast_S_S100000 (constant S_ .f32 0x3F800000#32)))

/-- The coefficient of each edge: `dinv` at its source times `dinv` at its target. -/
noncomputable def coefArr (ei : EdgeArr) : FVec Ideal S1600000 .f32 :=
  mulf (Host.gather gather_S100000_S1600000x1_S1600000_n_0_n_n_0_1_1 (dinvArr ei) (asCol (wrap (srcWords ei))))
    (Host.gather gather_S100000_S1600000x1_S1600000_n_0_n_n_0_1_1 (dinvArr ei) (asCol (wrap (dstWords ei))))

/-- The float word of `1.0` denotes the real number one. -/
theorem one_word : Ideal.ofBits .f32 0x3F800000#32 = ((1 : ℝ) : EReal) := by
  simp [Ideal.ofBits, Ideal.ieee, -EReal.coe_mul]; norm_num

/-- A constant spread over any shape reads its value at every entry. -/
theorem bcast_const {s : Shape} (h : S_.BroadcastsInDim s (![] : Fin 0 → Fin s.rank)) (w : BitVec 32) (i : s.Idx) :
    broadcastInDim s ![] h (constant (F := Ideal) S_ .f32 w) i = Ideal.ofBits .f32 w := rfl

/-- The host's inverse square root, entry by entry. -/
theorem hostRsqrt_apply {s : Shape} (x : FVec Ideal s .f32) (i : s.Idx) : Host.rsqrt x i = Ideal.rsqrt (x i) := rfl

/-- The inverse square root of a positive real is a real. -/
theorem rsqrt_real_of_pos (r : ℝ) (hr : 0 < r) : ∃ q : ℝ, Ideal.rsqrt (r : EReal) = (q : EReal) := by
  rw [Ideal.rsqrt_coe, if_neg (not_lt.mpr hr.le), if_neg hr.ne']
  exact ⟨_, rfl⟩

/-- A count of selected items, as an extended real, is a nonnegative real. -/
theorem count_real {ι : Type*} (s : Finset ι) (p : ι → Prop) [DecidablePred p] :
    ∃ q : ℝ, 0 ≤ q ∧ (∑ e ∈ s, if p e then ((1 : ℝ) : EReal) else 0) = (q : EReal) := by
  refine ⟨∑ e ∈ s, if p e then (1 : ℝ) else 0, Finset.sum_nonneg fun e _ => ?_, ?_⟩
  · split
    · exact zero_le_one
    · exact le_refl 0
  · rw [LibAggregateSwap.coe_sum]
    refine Finset.sum_congr rfl fun e _ => ?_
    split
    · rfl
    · exact EReal.coe_zero.symm

/-- Every `dinv n` is a real number: the degree is `0 + (number of edges ending at n) + 1`, a positive real. -/
theorem dinv_real (ei : EdgeArr) (i : S100000.Idx) : ∃ r : ℝ, dinvArr ei i = (r : EReal) := by
  obtain ⟨n, rfl⟩ : ∃ n : Fin 100000, i = ix1 n := ⟨i 0, eq_ix1 i⟩
  have hrec : scatter_S100000_S1600000x1_S1600000_n_0_0_1
      = LibScatterAddVec.vecDims 100000 1600000 scatter_S100000_S1600000x1_S1600000_n_0_0_1_wf := rfl
  unfold dinvArr
  rw [hostRsqrt_apply, addf_apply, hrec, LibScatterAddVec.scatterAdd_vec, bcast_const, bcast_const,
    Ideal.ofBits_zero_f32, one_word, zero_add]
  have hone : ∀ x : Fin 1600000,
      broadcastInDim S1600000 ![] bcast_S_S1600000 (constant (F := Ideal) S_ .f32 0x3F800000#32) (ix1 x)
        = ((1 : ℝ) : EReal) := fun x => (bcast_const _ _ _).trans one_word
  simp only [hone]
  obtain ⟨q, hq0, hq⟩ := count_real (Finset.univ : Finset (Fin 1600000))
    (fun e => ((asCol (dstWords ei)) (ix2 e (0 : Fin 1))).toInt = (n.val : Int))
  rw [hq, ← EReal.coe_add]
  exact rsqrt_real_of_pos (q + 1) (by linarith)

/-- A product of two reals is a real. -/
theorem mul_real {x y : EReal} (hx : ∃ a : ℝ, x = (a : EReal)) (hy : ∃ b : ℝ, y = (b : EReal)) :
    ∃ r : ℝ, x * y = (r : EReal) := by
  obtain ⟨a, rfl⟩ := hx
  obtain ⟨b, rfl⟩ := hy
  exact ⟨a * b, (EReal.coe_mul a b).symm⟩

/-- The coefficient of an edge is `dinv` at two nodes, multiplied. -/
theorem coefArr_apply (ei : EdgeArr) (i : S1600000.Idx) :
    coefArr ei i
      = dinvArr ei (gather_S100000_S1600000x1_S1600000_n_0_n_n_0_1_1.operandIdx i (asCol (wrap (srcWords ei))))
        * dinvArr ei (gather_S100000_S1600000x1_S1600000_n_0_n_n_0_1_1.operandIdx i (asCol (wrap (dstWords ei)))) := by
  unfold coefArr
  rw [mulf_apply]
  rfl

/-- Every coefficient is a real number: a product of two values of `dinv`. -/
theorem coef_real (ei : EdgeArr) (i : S1600000.Idx) : ∃ r : ℝ, coefArr ei i = (r : EReal) := by
  rw [coefArr_apply]
  exact mul_real (dinv_real ei _) (dinv_real ei _)

end Cert.Gcn

end
-- ==== Proof.Spec.lean ====
/-
  The two-layer graph convolution as ONE function of the argument arrays, entry by entry.

  A layer turns a column `T` of node values into the column whose entry at node `n` is
      (0 + Σ over the edges e ending at n of T(src e) · coef e)  +  T(n) · dinv(n)²,
  the neighbours' values scaled edge by edge and added into a zero start, then the node's own value scaled (its
  self-loop). Layer one applies this to each of the 128 columns of `x · W1`, adds the bias and clips below at zero;
  the result is contracted against the single column of `W2`, and layer two applies the same aggregation to that one
  column and adds the last bias.

  The source of an edge is read the way a row lookup reads it: the word wrapped when negative, taken signed, and
  brought into the node range. An edge ends at `n` when its target word, read signed, is exactly `n` (an edge whose
  target is out of range ends nowhere).
-/
import proofs.«172965_j60052232732743_2_alg».proof.Proof.Common

noncomputable section

open scoped BigOperators

namespace Cert.Gcn

open Idealize.ShloMosaic Idealize.ShloMosaic.ValueIdx Cert.KernelIdeal Cert.KernelIdeal.Facts₀ Cert.KernelIdeal.Facts

/-- The node an edge reads from. -/
noncomputable def srcNode (ei : EdgeArr) (e : Fin 1600000) : Fin 100000 :=
  ⟨min ((asCol (wrap (srcWords ei))) (ix2 e (0 : Fin 1))).toInt.toNat (100000 - 1), by omega⟩

/-- Edge `e` ends at node `n`. -/
def endsAt (ei : EdgeArr) (e : Fin 1600000) (n : Fin 100000) : Prop :=
  ((asCol (dstWords ei)) (ix2 e (0 : Fin 1))).toInt = (n.val : Int)

instance (ei : EdgeArr) (e : Fin 1600000) (n : Fin 100000) : Decidable (endsAt ei e n) := by
  unfold endsAt; infer_instance

/-- One column of node values aggregated over the graph. -/
noncomputable def agg (ei : EdgeArr) (T : Fin 100000 → EReal) (n : Fin 100000) : EReal :=
  ((0 : EReal) + ∑ e : Fin 1600000, if endsAt ei e n then T (srcNode ei e) * coefArr ei (ix1 e) else 0)
    + T n * (dinvArr ei (ix1 n) * dinvArr ei (ix1 n))

/-- Layer one at node `n`, hidden unit `j`: the aggregated column `j` of `x · W1`, plus the bias, clipped at zero. -/
noncomputable def hidden (x : FVec Ideal S100000x5 .f32) (ei : EdgeArr) (W1 : FVec Ideal S5x128 .f32) (b1 : FVec Ideal S128 .f32)
    (n : Fin 100000) (j : Fin 128) : EReal :=
  max (agg ei (fun n' => ∑ k : Fin 5, x (ix2 n' k) * W1 (ix2 k j)) n + b1 (ix1 j)) 0

/-- The hidden row of node `n` contracted against the one column of `W2`. -/
noncomputable def proj (x : FVec Ideal S100000x5 .f32) (ei : EdgeArr) (W1 : FVec Ideal S5x128 .f32) (b1 : FVec Ideal S128 .f32)
    (W2 : FVec Ideal S128x1 .f32) (n : Fin 100000) : EReal :=
  ∑ j : Fin 128, hidden x ei W1 b1 n j * W2 (ix2 j (0 : Fin 1))

/-- The network's output: layer two's aggregation of that column, plus the last bias. -/
noncomputable def out (x : FVec Ideal S100000x5 .f32) (ei : EdgeArr) (W1 : FVec Ideal S5x128 .f32) (b1 : FVec Ideal S128 .f32)
    (W2 : FVec Ideal S128x1 .f32) (b2 : FVec Ideal S1 .f32) : FVec Ideal S100000x1 .f32 :=
  fun i => agg ei (proj x ei W1 b1 W2) (i 0) + b2 (ix1 (0 : Fin 1))

end Cert.Gcn

end
-- ==== Proof.LibScatterAddRows.lean ====
/-
  An accumulating scatter of whole rows, read at an entry.

  The operand is an `N × C` array, the updates an `E × C` array, and update row `e` is added onto the operand row
  whose number is the `e`-th scatter index (one signed integer per update row); a row whose index is negative or
  `≥ N` is dropped. On the extended reals the result at `(n, c)` is therefore the operand's entry plus the sum, over
  the update rows `e` whose index is `n`, of the update entry `(e, c)`: the columns never mix.

  Everything is general in the three extents and in the width of the index integers.
-/
import Idealize.ShloMosaic.PureOps.Ideal
import Idealize.ShloMosaic.PureOps.Contract
import Idealize.ShloMosaic.Lib.ValueIdx

noncomputable section

namespace LibScatterAddRows

open Idealize.ShloMosaic Idealize.ShloMosaic.ValueIdx

variable {N E C w : Nat}

/-- The dimension numbers of a row scatter: operand `[N, C]`, one index per update row held as `[E, 1]`, updates
    `[E, C]`; the update's axis 1 is the window, the operand's axis 0 is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- On the row axis the window of update entry `(e, b)` starts at the `e`-th scatter index, read signed. -/
theorem start_row (idx : IVec ⟨2, ![E, 1]⟩ w) (e : Fin E) (b : Fin C) :
    (rowDims N E C wf).start (ix2 e b) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e b) ⟨List.idxOf (0 : Fin 2) (rowDims N E C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On the column axis it starts at zero. -/
theorem start_col (idx : IVec ⟨2, ![E, 1]⟩ w) (e : Fin E) (b : Fin C) :
    (rowDims N E C wf).start (ix2 e b) idx 1 = 0 := by
  unfold ScatterDims.start
  rw [dif_neg (show ¬ (1 : Fin 2) ∈ (rowDims N E C wf).scatterDimsToOperandDims from by
    intro h; exact absurd (congrArg Fin.val (List.mem_singleton.mp h)) Nat.one_ne_zero)]

/-- The window coordinate on the row axis is zero … -/
theorem window_row (e : Fin E) (b : Fin C) : (rowDims N E C wf).window (ix2 e b) 0 = 0 := by
  unfold ScatterDims.window
  rw [dif_neg (show ¬ (0 : Fin 2) ∈ (rowDims N E C wf).sKept from by
    show ¬ (0 : Fin 2) ∈ ([1] : List (Fin 2))
    intro h; exact absurd (congrArg Fin.val (List.mem_singleton.mp h)) Nat.zero_ne_one)]

/-- … and on the column axis it is the update entry's column. -/
theorem window_col (e : Fin E) (b : Fin C) : (rowDims N E C wf).window (ix2 e b) 1 = b.val := by
  unfold ScatterDims.window
  rw [dif_pos (show (1 : Fin 2) ∈ (rowDims N E C wf).sKept from by
    show (1 : Fin 2) ∈ ([1] : List (Fin 2))
    exact List.mem_singleton.mpr rfl)]
  rfl

/-- WHERE AN UPDATE ENTRY LANDS: entry `(e, b)` lands on operand entry `(n, c)` exactly when the `e`-th index is
    `n` and the columns agree. -/
theorem resultIdx?_iff (idx : IVec ⟨2, ![E, 1]⟩ w) (e : Fin E) (b : Fin C) (n : Fin N) (c : Fin C) :
    (rowDims N E C wf).resultIdx? (ix2 e b) idx = some (ix2 n c)
      ↔ (idx (ix2 e (0 : Fin 1))).toInt = (n.val : Int) ∧ b = c := by
  have hs0 := start_row wf idx e b
  have hs1 := start_col wf idx e b
  have hw0 := window_row wf e b
  have hw1 := window_col wf e b
  unfold ScatterDims.resultIdx?
  constructor
  · intro H
    split at H
    · rename_i h
      have H' := Option.some.inj H
      have h0 : ((rowDims N E C wf).start (ix2 e b) idx 0 + (rowDims N E C wf).window (ix2 e b) 0).toNat = n.val :=
        congrArg (fun f => (f 0).val) H'
      have h1 : ((rowDims N E C wf).start (ix2 e b) idx 1 + (rowDims N E C wf).window (ix2 e b) 1).toNat = c.val :=
        congrArg (fun f => (f 1).val) H'
      have hh0 := (h 0).1
      rw [hs0, hw0] at h0 hh0
      rw [hs1, hw1] at h1
      exact ⟨by omega, Fin.ext (by omega)⟩
    · exact absurd H (by simp)
  · rintro ⟨h0, rfl⟩
    have hn : n.val < N := n.isLt
    have hb : b.val < C := b.isLt
    have h : ∀ a, 0 ≤ (rowDims N E C wf).start (ix2 e b) idx a + (rowDims N E C wf).window (ix2 e b) a
        ∧ (rowDims N E C wf).start (ix2 e b) idx a + (rowDims N E C wf).window (ix2 e b) a
          < (⟨2, ![N, C]⟩ : Shape).size a :=
      Fin.forall_fin_two.2 ⟨by
        rw [hs0, hw0, h0]
        refine ⟨by omega, ?_⟩
        show (n.val : Int) + ((0 : Nat) : Int) < ((N : Nat) : Int)
        omega, by
        rw [hs1, hw1]
        refine ⟨by omega, ?_⟩
        show (0 : Int) + ((b.val : Nat) : Int) < ((C : Nat) : Int)
        omega⟩
    rw [dif_pos h]
    refine congrArg some (funext ?_)
    refine Fin.forall_fin_two.2 ⟨Fin.ext ?_, Fin.ext ?_⟩
    · show ((rowDims N E C wf).start (ix2 e b) idx 0 + (rowDims N E C wf).window (ix2 e b) 0).toNat = n.val
      rw [hs0, hw0, h0]; omega
    · show ((rowDims N E C wf).start (ix2 e b) idx 1 + (rowDims N E C wf).window (ix2 e b) 1).toNat = b.val
      rw [hs1, hw1]; omega

/-- THE ROW SCATTER READ AT AN ENTRY, on the extended reals: the operand's entry plus the update entries of the
    same column in the rows whose index is `n`. -/
theorem hostScatterAdd_rows (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_iff]
  by_cases hq : (idx (ix2 e (0 : Fin 1))).toInt = (n.val : Int)
  · simp only [hq, true_and, Finset.sum_ite_eq', Finset.mem_univ, if_true]
  · simp only [hq, false_and, if_false, Finset.sum_const_zero]

/-- The same for the host operation as a program prints it, read at the exact instance. -/
theorem scatterAdd_rows (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (rowDims N E C wf) x idx upd (ix2 n c)
      = x (ix2 n c) + ∑ e : Fin E, if (idx (ix2 e (0 : Fin 1))).toInt = (n.val : Int) then upd (ix2 e c) else 0 :=
  hostScatterAdd_rows wf x idx upd n c

end LibScatterAddRows

end
-- ==== Proof.LibRowGather.lean ====
/-
  Whole rows of a table gathered at integer start indices, read at an entry.

  `x[idx]` of a table `x : [N, C]` at an integer array lowers to a gather that collapses the row axis, takes a slice of
  one row and all `C` columns, and reads the row's start off the index array. Result entry `(r, k)` — or `(r, e, k)`
  when the index array has two axes — is the table at column `k` of the row named by the start index, read as a signed
  integer and brought into `[0, N - 1]`: the gather clamps every start so that the slice fits. Stated for an index array
  laid out `[R, 1]` (one start per result row) and `[R, J, 1]` (a `J`-tuple of starts per result row), general in every
  extent and in the integers' width.
-/
import Idealize.ShloMosaic.PureOps.ShapeOps
import Idealize.ShloMosaic.PureOps.Dims
import Idealize.ShloMosaic.Lib.ValueIdx

noncomputable section

namespace Cert.RowGather

open Idealize.ShloMosaic Idealize.ShloMosaic.ValueIdx

variable {α : Type}

/-- The dimension numbers of a row gather at starts laid out `[R, 1]`. -/
abbrev dims2 (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, k)` of the gathered rows is the table at column `k` of the clamped row `idx[r, 0]`. -/
theorem rows2_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (dims2 N C R wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (dims2 N C R wf).start (ix2 r k) idx 0 + (dims2 N C R wf).batchCoord (ix2 r k) 0 + (dims2 N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 N C R wf).startIndexMap from List.mem_singleton.mpr rfl)]
    have hsi : (dims2 N C R wf).siIdx (ix2 r k) ⟨List.idxOf (0 : Fin 2) (dims2 N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (dims2 N C R wf).start (ix2 r k) idx 1 + (dims2 N C R wf).batchCoord (ix2 r k) 1 + (dims2 N C R wf).offCoord (ix2 r k) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

/-- The dimension numbers of a row gather at starts laid out `[R, J, 1]`. -/
abbrev dims3 (N C R J : Nat) (wf : GatherDims.WF ⟨2, ![N, C]⟩ ⟨3, ![R, J, 1]⟩ ⟨3, ![R, J, C]⟩ [2] [0] [] [0] [] 2 ![1, C]) :
    GatherDims ⟨2, ![N, C]⟩ ⟨3, ![R, J, 1]⟩ ⟨3, ![R, J, C]⟩ where
  offsetDims := [2]
  collapsedSliceDims := [0]
  operandBatchingDims := []
  startIndicesBatchingDims := []
  startIndexMap := [0]
  indexVectorDim := 2
  sliceSizes := ![1, C]
  wf := wf

/-- Entry `(r, e, k)` of the gathered rows is the table at column `k` of the clamped row `idx[r, e, 0]`. -/
theorem rows3_apply {N C R J w : Nat} (hN : 0 < N)
    (wf : GatherDims.WF ⟨2, ![N, C]⟩ ⟨3, ![R, J, 1]⟩ ⟨3, ![R, J, C]⟩ [2] [0] [] [0] [] 2 ![1, C])
    (x : (⟨2, ![N, C]⟩ : Shape).Idx → α) (idx : IVec ⟨3, ![R, J, 1]⟩ w) (r : Fin R) (e : Fin J) (k : Fin C) :
    Host.gather (dims3 N C R J wf) x idx (ix3 r e k)
      = x (ix2 (⟨min (idx (ix3 r e (0 : Fin 1))).toInt.toNat (N - 1), by omega⟩ : Fin N) k) := by
  unfold Host.gather
  refine congrArg x (funext fun a => Fin.ext ?_)
  match a with
  | ⟨0, _⟩ =>
    show (dims3 N C R J wf).start (ix3 r e k) idx 0 + (dims3 N C R J wf).batchCoord (ix3 r e k) 0 + (dims3 N C R J wf).offCoord (ix3 r e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims3 N C R J wf).startIndexMap from List.mem_singleton.mpr rfl)]
    have hsi : (dims3 N C R J wf).siIdx (ix3 r e k) ⟨List.idxOf (0 : Fin 2) (dims3 N C R J wf).startIndexMap,
        List.idxOf_lt_length_iff.2 (List.mem_singleton.mpr rfl)⟩ = ix3 r e (0 : Fin 1) := by
      funext b; refine Fin.ext ?_
      match b with
      | ⟨0, _⟩ => rfl
      | ⟨1, _⟩ => rfl
      | ⟨2, _⟩ => rfl
    rw [hsi]
    rfl
  | ⟨1, _⟩ =>
    show (dims3 N C R J wf).start (ix3 r e k) idx 1 + (dims3 N C R J wf).batchCoord (ix3 r e k) 1 + (dims3 N C R J wf).offCoord (ix3 r e k) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

end Cert.RowGather

end
-- ==== Proof.LibColumnsInDim.lean ====
/-
  Column layouts made by `broadcast_in_dim`, read at an entry.

  A vector `[a]` laid out as a one-column matrix `[a, 1]`, a one-column matrix repeated across `b` columns, and a
  `1 × 1` matrix repeated down `a` rows: each reads, at an entry, the operand at the row (or at its one entry). General
  in the extents and in the element type.
-/
import Idealize.ShloMosaic.Lib.Pipeline.Value
import Idealize.ShloMosaic.Lib.ValueIdx

namespace LibColumnsInDim

open Idealize.ShloMosaic Idealize.ShloMosaic.ValueIdx

variable {α : Type} {a b : ℕ}

/-- A vector as a one-column matrix: entry `(i, u)` is the vector's entry `i`. -/
theorem vec_col_apply (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply (![0] : Fin 1 → Fin 2) h x (ix2 i u) (ix1 i) fun ax => ?_
  match ax with
  | ⟨0, _⟩ =>
    show i.val = if a = 1 then 0 else i.val
    split
    · have := i.isLt; omega
    · rfl

/-- A one-column matrix repeated across `b` columns: entry `(i, k)` is the column's entry `i`. -/
theorem col_across_apply (x : (⟨2, ![a, 1]⟩ : Shape).Idx → α)
    (h : (⟨2, ![a, 1]⟩ : Shape).BroadcastsInDim ⟨2, ![a, b]⟩ (![0, 1] : Fin 2 → Fin 2)) (i : Fin a) (k : Fin b) :
    broadcastInDim ⟨2, ![a, b]⟩ ![0, 1] h x (ix2 i k) = x (ix2 i (0 : Fin 1)) := by
  refine broadcastInDim_apply (![0, 1] : Fin 2 → Fin 2) h x (ix2 i k) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else k.val
    rw [if_pos rfl]

/-- A `1 × 1` matrix repeated down `a` rows: every entry is its one entry. -/
theorem one_down_apply (x : (⟨2, ![1, 1]⟩ : Shape).Idx → α)
    (h : (⟨2, ![1, 1]⟩ : Shape).BroadcastsInDim ⟨2, ![a, 1]⟩ (![0, 1] : Fin 2 → Fin 2)) (i : Fin a) (u : Fin 1) :
    broadcastInDim ⟨2, ![a, 1]⟩ ![0, 1] h x (ix2 i u) = x (ix2 (0 : Fin 1) (0 : Fin 1)) := by
  refine broadcastInDim_apply (![0, 1] : Fin 2 → Fin 2) h x (ix2 i u) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else u.val
    rw [if_pos rfl]

end LibColumnsInDim
-- ==== Proof.KernelHost.lean ====
/-
  The arrays the host lines before the region produce, as functions of the arguments, read entry by entry.

  Before the fused layer-one region the program has already aggregated the raw features over the graph (width 5):
  row `n` of that array is the sum, over the edges ending at `n`, of the source node's feature row scaled by the edge's
  coefficient, started from zero. It has also laid `dinv²` out as a column, the first bias as a row, and the
  coefficients as a column. Each of these is the program's own composition of operations over the shared pieces
  (sources, targets, `dinv`, coefficients); here they are named, and the aggregated features are read entry by entry.
-/
import proofs.«172965_j60052232732743_2_alg».proof.Proof.Spec
import proofs.«172965_j60052232732743_2_alg».proof.Proof.LibScatterAddRows
import proofs.«172965_j60052232732743_2_alg».proof.Proof.LibRowGather
import proofs.«172965_j60052232732743_2_alg».proof.Proof.LibKeepdims
import proofs.«172965_j60052232732743_2_alg».proof.Proof.LibColumnsInDim
import Idealize.ShloMosaic.PureOps.Ideal.Laws
import Idealize.ShloMosaic.Lib.Pipeline.Value
import Idealize.ShloMosaic.Lib.ValueIdx

noncomputable section

open scoped BigOperators

namespace Cert.Gcn

open Idealize.ShloMosaic Idealize.ShloMosaic.ValueIdx
open Cert.KernelIdeal Cert.KernelIdeal.Facts₀ Cert.KernelIdeal.Facts

/-- The coefficients as a column. -/
noncomputable def coefCol (ei : EdgeArr) : FVec Ideal S1600000x1 .f32 := shapeCast _ (coefArr ei) shapeCasts_S1600000_S1600000x1

/-- `dinv²` as a column. -/
noncomputable def dinvSqCol (ei : EdgeArr) : FVec Ideal S100000x1 .f32 := shapeCast _ (mulf (dinvArr ei) (dinvArr ei)) shapeCasts_S100000_S100000x1

/-- The raw features aggregated over the graph, from zero. -/
noncomputable def aggFeat (x : FVec Ideal S100000x5 .f32) (ei : EdgeArr) : FVec Ideal S100000x5 .f32 :=
  Host.scatterAdd scatter_S100000x5_S1600000x1_S1600000x5_1_0_0_1
    (broadcastInDim S100000x5 ![] bcast_S_S100000x5 (constant S_ .f32 0x00000000#32))
    (asCol (dstWords ei))
    (mulf (Host.gather gather_S100000x5_S1600000x1_S1600000x5_1_0_n_n_0_1_15 x (asCol (wrap (srcWords ei))))
      (broadcastInDim S1600000x5 ![0, 1] bcast_S1600000x1_S1600000x5_0_1 (coefCol ei)))

/-- The coefficient column at `(e, ·)` is edge `e`'s coefficient. -/
theorem coefCol_apply (ei : EdgeArr) (e : Fin 1600000) (u : Fin 1) : coefCol ei (ix2 e u) = coefArr ei (ix1 e) :=
  Cert.Keepdims.shapeCast_a_a1_apply (coefArr ei) shapeCasts_S1600000_S1600000x1 e u

/-- The `dinv²` column at `(n, ·)`. -/
theorem dinvSqCol_apply (ei : EdgeArr) (n : Fin 100000) (u : Fin 1) :
    dinvSqCol ei (ix2 n u) = dinvArr ei (ix1 n) * dinvArr ei (ix1 n) :=
  (Cert.Keepdims.shapeCast_a_a1_apply (mulf (dinvArr ei) (dinvArr ei)) shapeCasts_S100000_S100000x1 n u).trans
    (mulf_apply (dinvArr ei) (dinvArr ei) (ix1 n))

/-- THE AGGREGATED FEATURES AT `(n, k)`: from zero, the sum over the edges ending at `n` of the source node's feature
    `k` times the edge's coefficient. -/
theorem aggFeat_apply (x : FVec Ideal S100000x5 .f32) (ei : EdgeArr) (n : Fin 100000) (k : Fin 5) :
    aggFeat x ei (ix2 n k)
      = (0 : EReal) + ∑ e : Fin 1600000, if endsAt ei e n then x (ix2 (srcNode ei e) k) * coefArr ei (ix1 e) else 0 := by
  unfold aggFeat
  have hrec : scatter_S100000x5_S1600000x1_S1600000x5_1_0_0_1
      = LibScatterAddRows.rowDims 100000 1600000 5 scatter_S100000x5_S1600000x1_S1600000x5_1_0_0_1_wf := rfl
  rw [hrec]
  refine (LibScatterAddRows.scatterAdd_rows (N := 100000) (E := 1600000) (C := 5)
    scatter_S100000x5_S1600000x1_S1600000x5_1_0_0_1_wf _ _ _ n k).trans ?_
  refine congrArg₂ (· + ·) ?_ (Finset.sum_congr rfl fun e _ => ?_)
  · show Ideal.ofBits .f32 0x00000000#32 = 0
    exact Ideal.ofBits_zero_f32
  · refine if_congr Iff.rfl ?_ rfl
    rw [mulf_apply]
    refine congrArg₂ (· * ·) ?_ ?_
    · exact Cert.RowGather.rows2_apply (N := 100000) (C := 5) (R := 1600000) (by norm_num)
        gather_S100000x5_S1600000x1_S1600000x5_1_0_n_n_0_1_15_wf x (asCol (wrap (srcWords ei))) e k
    · exact (LibColumnsInDim.col_across_apply (coefCol ei) bcast_S1600000x1_S1600000x5_0_1 e k).trans
        (coefCol_apply ei e 0)

end Cert.Gcn

end
-- ==== Proof.KernelValue.lean ====
/-
  The region's output column is the specification's: aggregating before or after the first linear map.

  The region computes, for node `n` and hidden unit `j`,  Σ_k (aggregated feature k of n) · W1(k, j), where the
  aggregation ran over the raw features (width 5). The specification aggregates column `j` of `x · W1` instead (width
  128). For real features, weights, coefficients and `dinv` the two are one double sum re-associated; from there on
  (bias, clipping, the contraction against `W2`) both sides apply the same operations.
-/
import proofs.«172965_j60052232732743_2_alg».proof.Proof.KernelHost
import proofs.«172965_j60052232732743_2_alg».proof.Proof.KernelBody
import proofs.«172965_j60052232732743_2_alg».proof.Proof.LibAggregateSwap

noncomputable section

open scoped BigOperators

namespace Cert.Gcn

open Idealize.ShloMosaic Idealize.ShloMosaic.ValueIdx Cert.KernelIdeal Cert.KernelIdeal.Facts₀ Cert.KernelIdeal.Facts

/-- The region's whole-array function at the arrays the host lines before it produce, entry by entry: the hidden
    layer over the AGGREGATED RAW features. -/
theorem blockSpec_args (x : FVec Ideal S100000x5 .f32) (ei : EdgeArr) (W1 : FVec Ideal S5x128 .f32)
    (b1 : FVec Ideal S128 .f32) (W2 : FVec Ideal S128x1 .f32) (n : Fin 100000) (u : Fin 1) :
    blockSpec x (aggFeat x ei) (dinvSqCol ei) W1 (shapeCast _ b1 shapeCasts_S128_S1x128) W2 (ix2 n u)
      = ∑ j : Fin 128, max ((∑ k : Fin 5, agg ei (fun n' => x (ix2 n' k)) n * W1 (ix2 k j)) + b1 (ix1 j)) 0
          * W2 (ix2 j u) := by
  show ∑ j : Fin 128, max ((∑ k : Fin 5, (aggFeat x ei (ix2 n k) + x (ix2 n k) * dinvSqCol ei (ix2 n (0 : Fin 1)))
        * W1 (ix2 k j)) + shapeCast S1x128 b1 shapeCasts_S128_S1x128 (ix2 (0 : Fin 1) j)) 0 * W2 (ix2 j u) = _
  refine Finset.sum_congr rfl fun j _ => ?_
  rw [shapeCast_a_1a_apply b1 shapeCasts_S128_S1x128 (0 : Fin 1) j]
  refine congrArg (fun z => max (z + b1 (ix1 j)) 0 * W2 (ix2 j u)) ?_
  refine Finset.sum_congr rfl fun k _ => ?_
  rw [aggFeat_apply, dinvSqCol_apply]
  rfl

/-- AGGREGATING BEFORE OR AFTER THE LINEAR MAP: for real features and weights, contracting the aggregated raw features
    against column `j` of `W1` is aggregating column `j` of `x · W1`. -/
theorem agg_swap (x : FVec Ideal S100000x5 .f32) (ei : EdgeArr) (W1 : FVec Ideal S5x128 .f32)
    (hx : ∀ i, ∃ r : ℝ, x i = (r : EReal)) (hW : ∀ i, ∃ r : ℝ, W1 i = (r : EReal)) (n : Fin 100000) (j : Fin 128) :
    (∑ k : Fin 5, agg ei (fun n' => x (ix2 n' k)) n * W1 (ix2 k j))
      = agg ei (fun n' => ∑ k : Fin 5, x (ix2 n' k) * W1 (ix2 k j)) n := by
  choose xr hxr using hx
  choose wr hwr using hW
  choose cr hcr using coef_real ei
  choose dr hdr using dinv_real ei
  unfold agg
  simp only [hxr, hwr, hcr, hdr]
  rw [← EReal.coe_mul (dr (ix1 n)) (dr (ix1 n))]
  exact LibAggregateSwap.swap_ereal (fun e => endsAt ei e n) (fun e k => xr (ix2 (srcNode ei e) k))
    (fun k => xr (ix2 n k)) (fun k => wr (ix2 k j)) (fun e => cr (ix1 e)) (dr (ix1 n) * dr (ix1 n))

/-- The region's output column IS the specification's projected hidden layer. -/
theorem blockSpec_proj (x : FVec Ideal S100000x5 .f32) (ei : EdgeArr) (W1 : FVec Ideal S5x128 .f32)
    (b1 : FVec Ideal S128 .f32) (W2 : FVec Ideal S128x1 .f32)
    (hx : ∀ i, ∃ r : ℝ, x i = (r : EReal)) (hW : ∀ i, ∃ r : ℝ, W1 i = (r : EReal)) (n : Fin 100000) (u : Fin 1) :
    blockSpec x (aggFeat x ei) (dinvSqCol ei) W1 (shapeCast _ b1 shapeCasts_S128_S1x128) W2 (ix2 n u)
      = proj x ei W1 b1 W2 n := by
  obtain rfl : u = 0 := Subsingleton.elim _ _
  rw [blockSpec_args]
  unfold proj hidden
  refine Finset.sum_congr rfl fun j _ => ?_
  rw [agg_swap x ei W1 hx hW n j]

end Cert.Gcn

end
-- ==== Proof.KernelEntry.lean ====
/-
  The arrays the region finds, and the ones the lines after it read, are the named functions of the arguments.

  Each buffer the host lines before the region write holds that line's operation applied to what its operands held;
  following the lines back to the arguments gives, for the six buffers the proof needs — the aggregated features,
  `dinv²` as a column, the bias as a row, the source and target words, the coefficient column — exactly the
  compositions named in the preceding modules.
-/
import proofs.«172965_j60052232732743_2_alg».proof.Proof.Gen.KernelIdeal.Frame
import proofs.«172965_j60052232732743_2_alg».proof.Proof.KernelHost
import Idealize.ShloMosaic.Lib.StableHlo.Run

set_option maxRecDepth 16384

noncomputable section

namespace Cert.Gcn

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

set_option maxHeartbeats 8000000 in
/-- The source words. -/
theorem V_srcWords (c : Dev nD) : (V m c main_v1 : S1600000.Idx → BitVec 32) = srcWords (m ((c : Thread nD τ).loc main_arg1)) := by
  show StableHlo.after hostOps0 (fun b => m (c, b)) (Proc.devRef .tc main_v1) = _
  after_results_simp <;> rfl

set_option maxHeartbeats 8000000 in
/-- The target words. -/
theorem V_dstWords (c : Dev nD) : (V m c main_v3 : S1600000.Idx → BitVec 32) = dstWords (m ((c : Thread nD τ).loc main_arg1)) := by
  show StableHlo.after hostOps0 (fun b => m (c, b)) (Proc.devRef .tc main_v3) = _
  after_results_simp <;> rfl

set_option maxHeartbeats 8000000 in
/-- `dinv²` as a column: the region's third window's array. -/
theorem V_dinvSq (c : Dev nD) : (V m c main_v12 : S100000x1.Idx → EReal)
    = dinvSqCol (m ((c : Thread nD τ).loc main_arg1)) := by
  show StableHlo.after hostOps0 (fun b => m (c, b)) (Proc.devRef .tc main_v12) = _
  after_results_simp <;> rfl

set_option maxHeartbeats 8000000 in
/-- The coefficient column. -/
theorem V_coefCol (c : Dev nD) : (V m c main_v28 : S1600000x1.Idx → EReal) = coefCol (m ((c : Thread nD τ).loc main_arg1)) := by
  show StableHlo.after hostOps0 (fun b => m (c, b)) (Proc.devRef .tc main_v28) = _
  after_results_simp <;> rfl

set_option maxHeartbeats 8000000 in
/-- The aggregated features: the region's second window's array. -/
theorem V_aggFeat (c : Dev nD) : (V m c main_v40 : S100000x5.Idx → EReal)
    = aggFeat (m ((c : Thread nD τ).loc main_arg0)) (m ((c : Thread nD τ).loc main_arg1)) := by
  show StableHlo.after hostOps0 (fun b => m (c, b)) (Proc.devRef .tc main_v40) = _
  after_results_simp <;> rfl

set_option maxHeartbeats 8000000 in
/-- The first bias as a row: the region's fifth window's array. -/
theorem V_biasRow (c : Dev nD) : (V m c main_v41 : S1x128.Idx → EReal)
    = shapeCast _ (m ((c : Thread nD τ).loc main_arg3)) shapeCasts_S128_S1x128 := by
  show StableHlo.after hostOps0 (fun b => m (c, b)) (Proc.devRef .tc main_v41) = _
  after_results_simp <;> rfl

end Cert.Gcn

end
-- ==== Proof.KernelTail.lean ====
/-
  The lines after the region: layer two, and the program's result.

  After the fused region has left the projected hidden layer `h2` (one number per node) in its output array, the
  program aggregates that column over the graph exactly as the specification's second layer does — the edges ending
  at `n` bring `h2` at their source times their coefficient into a zero start, the node adds `h2(n) · dinv(n)²` — and
  adds the last bias. Read entry by entry this is the specification's aggregation of the column `h2`.
-/
import proofs.«172965_j60052232732743_2_alg».proof.Proof.KernelArray
import proofs.«172965_j60052232732743_2_alg».proof.Proof.KernelValue
import proofs.«172965_j60052232732743_2_alg».proof.Proof.KernelEntry

set_option maxRecDepth 16384

noncomputable section

open scoped BigOperators

namespace Cert.Gcn

open Idealize.ShloMosaic Idealize.ShloMosaic.TcCoe Idealize.ShloMosaic.ValueIdx Idealize.SL.Sem
open Idealize.ShloMosaic.Pipeline (Dat)
open Idealize.ShloMosaic.StableHlo
open Cert.KernelIdeal Cert.KernelIdeal.Gen

/-- Layer two and the last bias, as the program's lines after the region compose them. -/
noncomputable def tailOut (h2 : FVec Ideal S100000x1 .f32) (srcW dstW : EdgeWords) (coefc : FVec Ideal S1600000x1 .f32)
    (dsq : FVec Ideal S100000x1 .f32) (b2 : FVec Ideal S1 .f32) : FVec Ideal S100000x1 .f32 :=
  addf (addf (Host.scatterAdd scatter_S100000x1_S1600000x1_S1600000x1_1_0_0_1
        (broadcastInDim S100000x1 ![] bcast_S_S100000x1 (constant S_ .f32 0x00000000#32))
        (asCol dstW)
        (mulf (Host.gather gather_S100000x1_S1600000x1_S1600000x1_1_0_n_n_0_1_11 h2 (asCol (wrap srcW))) coefc))
      (mulf h2 dsq))
    (broadcastInDim S100000x1 ![0, 1] bcast_S1x1_S100000x1_0_1 (shapeCast S1x1 b2 shapeCasts_S1_S1x1))

/-- THE TAIL AT `(n, ·)`: the specification's aggregation of the column `h2`, plus the bias. -/
theorem tailOut_apply (h2 : FVec Ideal S100000x1 .f32) (ei : EdgeArr) (b2 : FVec Ideal S1 .f32) (n : Fin 100000) (u : Fin 1) :
    tailOut h2 (srcWords ei) (dstWords ei) (coefCol ei) (dinvSqCol ei) b2 (ix2 n u)
      = agg ei (fun n' => h2 (ix2 n' (0 : Fin 1))) n + b2 (ix1 (0 : Fin 1)) := by
  obtain rfl : u = 0 := Subsingleton.elim _ _
  unfold tailOut agg
  rw [addf_apply, addf_apply, mulf_apply, dinvSqCol_apply]
  have hrec : scatter_S100000x1_S1600000x1_S1600000x1_1_0_0_1
      = LibScatterAddRows.rowDims 100000 1600000 1 scatter_S100000x1_S1600000x1_S1600000x1_1_0_0_1_wf := rfl
  rw [hrec]
  refine congrArg₂ (· + ·) (congrArg₂ (· + ·) ?_ rfl) ?_
  · refine (LibScatterAddRows.scatterAdd_rows (N := 100000) (E := 1600000) (C := 1)
      scatter_S100000x1_S1600000x1_S1600000x1_1_0_0_1_wf _ _ _ n (0 : Fin 1)).trans ?_
    refine congrArg₂ (· + ·) ?_ (Finset.sum_congr rfl fun e _ => ?_)
    · show Ideal.ofBits .f32 0x00000000#32 = 0
      exact Ideal.ofBits_zero_f32
    · refine if_congr Iff.rfl ?_ rfl
      rw [mulf_apply]
      refine congrArg₂ (· * ·) ?_ (coefCol_apply ei e 0)
      exact Cert.RowGather.rows2_apply (N := 100000) (C := 1) (R := 1600000) (by norm_num)
        gather_S100000x1_S1600000x1_S1600000x1_1_0_n_n_0_1_11_wf h2 (asCol (wrap (srcWords ei))) e (0 : Fin 1)
  · exact (LibColumnsInDim.one_down_apply (shapeCast S1x1 b2 shapeCasts_S1_S1x1) bcast_S1x1_S100000x1_0_1 n (0 : Fin 1)).trans
      (Cert.Keepdims.shapeCast_1_11_apply b2 shapeCasts_S1_S1x1 (0 : Fin 1) (0 : Fin 1))

variable (m : (ℓ : Loc nD τ sig) → Buf (Elt Ideal) ℓ)

set_option maxHeartbeats 8000000 in
/-- THE PROGRAM'S RESULT as the tail of the arrays the region leaves and finds. -/
theorem tail_eq (c : Dev nD) :
    Pipeline.afterTail₀ cfgs (dats m) 0 (V0 m) [hostOps1] c main_v58
      = tailOut ((dats m 0 c).arrAt 6 cfg0.N) (V m c main_v1) (V m c main_v3) (V m c main_v28) (V m c main_v12)
          (V m c main_arg5) := by
  unfold Pipeline.afterTail₀
  show StableHlo.after hostOps1 _ (Proc.devRef .tc main_v58) = _
  after_results_simp
  have h42 : Pipeline.withArrays (cfgs 0).spec c (V0 m c) (fun w => (dats m 0 c).arrAt w (cfgs 0).N)
      (Proc.devRef .tc main_v42) = (dats m 0 c).arrAt 6 cfg0.N :=
    Pipeline.withArrays_arr spec0 launch0.win.arr_inj c _ _ 6
  have h12 : Pipeline.withArrays (cfgs 0).spec c (V0 m c) (fun w => (dats m 0 c).arrAt w (cfgs 0).N)
      (Proc.devRef .tc main_v12) = V m c (Pipeline.arrRef spec0 2) :=
    (Pipeline.withArrays_arr spec0 launch0.win.arr_inj c _ _ 2).trans
      (((dats m 0 c).arrAt_in 2 rfl _).trans (A_eq m c 2))
  rw [Pipeline.withArrays_of_ne _ c (V0 m c) _ main_v3 (by exact (by decide : ∀ w, Pipeline.arrRef spec0 w ≠ main_v3)),
    Pipeline.withArrays_of_ne _ c (V0 m c) _ main_v1 (by exact (by decide : ∀ w, Pipeline.arrRef spec0 w ≠ main_v1)),
    Pipeline.withArrays_of_ne _ c (V0 m c) _ main_v28 (by exact (by decide : ∀ w, Pipeline.arrRef spec0 w ≠ main_v28)),
    Pipeline.withArrays_of_ne _ c (V0 m c) _ main_arg5 (by exact (by decide : ∀ w, Pipeline.arrRef spec0 w ≠ main_arg5)),
    h42, h12]
  rfl

end Cert.Gcn

end
-- ==== Proof.KernelRun.lean ====
/-
  The idealized kernel's run, with its result named.

  Every weakly fair execution of the program terminates; its result array holds the specification's output — layer two's
  aggregation of the projected hidden layer the region computed, plus the last bias — and the argument arrays end
  unchanged. The features and the first weight matrix are assumed real (that is what the precondition gives): only the
  re-association inside layer one needs it.
-/
import proofs.«172965_j60052232732743_2_alg».proof.Proof.KernelTail

set_option maxRecDepth 16384

noncomputable section

open scoped BigOperators

namespace Cert.Gcn

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- Equal arrays give equal whole-array functions. -/
theorem blockSpec_congr {X X' A A' : FVec Ideal S100000x5 .f32} {D D' : FVec Ideal S100000x1 .f32}
    {W1 W1' : FVec Ideal S5x128 .f32} {B B' : FVec Ideal S1x128 .f32} {W2 W2' : FVec Ideal S128x1 .f32}
    (e0 : X = X') (e1 : A = A') (e2 : D = D') (e3 : W1 = W1') (e4 : B = B') (e5 : W2 = W2') :
    blockSpec X A D W1 B W2 = blockSpec X' A' D' W1' B' W2' := by
  subst e0 e1 e2 e3 e4 e5; rfl

/-- Equal arrays give equal tails. -/
theorem tailOut_congr {h h' : FVec Ideal S100000x1 .f32} {s s' d d' : EdgeWords} {cc cc' : FVec Ideal S1600000x1 .f32}
    {q q' : FVec Ideal S100000x1 .f32} {b b' : FVec Ideal S1 .f32}
    (e0 : h = h') (e1 : s = s') (e2 : d = d') (e3 : cc = cc') (e4 : q = q') (e5 : b = b') :
    tailOut h s d cc q b = tailOut h' s' d' cc' q' b' := by
  subst e0 e1 e2 e3 e4 e5; rfl

/-- The region's whole-array function at the arrays the lines before it produce. -/
theorem region_args (c : Dev nD) :
    regionOut m c = blockSpec (m ((c : Thread nD τ).loc main_arg0))
      (aggFeat (m ((c : Thread nD τ).loc main_arg0)) (m ((c : Thread nD τ).loc main_arg1)))
      (dinvSqCol (m ((c : Thread nD τ).loc main_arg1))) (m ((c : Thread nD τ).loc main_arg2))
      (shapeCast _ (m ((c : Thread nD τ).loc main_arg3)) shapeCasts_S128_S1x128) (m ((c : Thread nD τ).loc main_arg4)) :=
  blockSpec_congr (V_main_arg0 m c) (V_aggFeat m c) (V_dinvSq m c) (V_main_arg2 m c) (V_biasRow m c) (V_main_arg4 m c)

/-- THE RESULT: what the lines after the region leave in the result array is the specification's output. -/
theorem result_eq (c : Dev nD)
    (hx : ∀ i, ∃ r : ℝ, m ((c : Thread nD τ).loc main_arg0) i = (r : EReal))
    (hW : ∀ i, ∃ r : ℝ, m ((c : Thread nD τ).loc main_arg2) i = (r : EReal)) :
    Pipeline.afterTail₀ cfgs (dats m) 0 (V0 m) [hostOps1] c main_v58
      = out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (tail_eq m c).trans ((tailOut_congr ((region_final m c).trans (region_args m c)) (V_srcWords m c)
    (V_dstWords m c) (V_coefCol m c) (V_dinvSq m c) (V_main_arg5 m c)).trans ?_)
  funext i
  obtain ⟨n, u, rfl⟩ : ∃ (n : Fin 100000) (u : Fin 1), i = ix2 n u := ⟨i 0, i 1, eq_ix2 i⟩
  rw [tailOut_apply]
  unfold out
  refine congrArg (fun T => agg (m ((c : Thread nD τ).loc main_arg1)) T n + m ((c : Thread nD τ).loc main_arg5) (ix1 (0 : Fin 1))) ?_
  funext n'
  exact blockSpec_proj _ _ _ _ _ hx hW n' 0

/-- THE RUN of the idealized kernel. -/
theorem kernel_run (ρ : Dev nD → PrngReg)
    (hx : ∀ (c : Dev nD) i, ∃ r : ℝ, m ((c : Thread nD τ).loc main_arg0) i = (r : EReal))
    (hW : ∀ (c : Dev nD) i, ∃ r : ℝ, m ((c : Thread nD τ).loc main_arg2) i = (r : EReal)) :
    θ_run defs (onTc (τ := τ) (main (F := Ideal))) ⟨m, fun _ => 0, ρ⟩ (fun r => ∀ c : Dev nD,
      r.2.mem ((c.tc : Thread nD τ).loc main_v58)
          = out (m ((c : Thread nD τ).loc main_arg0)) (m ((c : Thread nD τ).loc main_arg1))
              (m ((c : Thread nD τ).loc main_arg2)) (m ((c : Thread nD τ).loc main_arg3))
              (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v58 (Pipeline.mem_restRefs_of main_v58 (by decide) (by decide))).trans (result_eq m c (hx c) (hW c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c)⟩)
    (run_main m ρ)

end Cert.Gcn

end
-- ==== Proof.RefValue.lean ====
/-
  The reference program, read entry by entry, computes the two-layer graph convolution of the specification.

  The program's host operations are read in program order. The edge list's source and target columns, the inverse
  square roots of the degrees and the per-edge coefficients are computed by the very operations the specification
  names, once per layer, so each of them IS the specification's array. A row lookup at the source column reads the
  table at the clamped source node of each edge; an accumulating scatter of rows at the target column adds, into a
  zero start, the update row of every edge that ends at the node. Put together, one layer at node `n` is
      (0 + sum over the edges e ending at n of T(src e) * coef e) + T(n) * dinv(n)^2,
  which is the specification's aggregation, and the rest is elementwise: the bias, the clip at zero, the contraction
  against the second weight column, the second aggregation and the last bias.
-/
import proofs.«172965_j60052232732743_2_alg».proof.Proof.Gen.ReferenceIdeal.Read
import proofs.«172965_j60052232732743_2_alg».proof.Proof.Spec
import proofs.«172965_j60052232732743_2_alg».proof.Proof.LibScatterAddRows
import proofs.«172965_j60052232732743_2_alg».proof.Proof.LibRowGather

noncomputable section

open scoped BigOperators

namespace Cert.ReferenceIdeal.RefValue

open Idealize.ShloMosaic Idealize.ShloMosaic.ValueIdx Cert.ReferenceIdeal Cert.ReferenceIdeal.Gen Cert.ReferenceIdeal.Read

/-! ## The stages both layers share are the specification's arrays -/

/-- The target column used by layer one's scatter. -/
theorem dstCol38 (x1 : Gcn.EdgeArr) : val_main_v38 (F := Ideal) x1 = Gcn.asCol (Gcn.dstWords x1) := rfl
/-- The target column used by layer two's scatter. -/
theorem dstCol82 (x1 : Gcn.EdgeArr) : val_main_v82 (F := Ideal) x1 = Gcn.asCol (Gcn.dstWords x1) := rfl
/-- The wrapped source column used by layer one's row lookup. -/
theorem srcCol32 (x1 : Gcn.EdgeArr) : val_main_v32 (F := Ideal) x1 = Gcn.asCol (Gcn.wrap (Gcn.srcWords x1)) := rfl
/-- The wrapped source column used by layer two's row lookup. -/
theorem srcCol77 (x1 : Gcn.EdgeArr) : val_main_v77 (F := Ideal) x1 = Gcn.asCol (Gcn.wrap (Gcn.srcWords x1)) := rfl
/-- Layer one's inverse square roots of the degrees. -/
theorem dinv11 (x1 : Gcn.EdgeArr) : val_main_v11 (F := Ideal) x1 = Gcn.dinvArr x1 := rfl
/-- Layer two's inverse square roots of the degrees. -/
theorem dinv56 (x1 : Gcn.EdgeArr) : val_main_v56 (F := Ideal) x1 = Gcn.dinvArr x1 := rfl
/-- Layer one's edge coefficients. -/
theorem coef26 (x1 : Gcn.EdgeArr) : val_main_v26 (F := Ideal) x1 = Gcn.coefArr x1 := rfl
/-- Layer two's edge coefficients. -/
theorem coef71 (x1 : Gcn.EdgeArr) : val_main_v71 (F := Ideal) x1 = Gcn.coefArr x1 := rfl

/-! ## Layer one -/

/-- The first product `x · W1` at node `n`, column `j`. -/
theorem v4_at (x0 : FVec Ideal S100000x5 .f32) (x2 : FVec Ideal S5x128 .f32) (n : Fin 100000) (j : Fin 128) :
    val_main_v4 (F := Ideal) x0 x2 (ix2 n j) = ∑ k : Fin 5, x0 (ix2 n k) * x2 (ix2 k j) := by
  rw [val_main_v4_apply]
  refine Finset.sum_congr rfl fun k _ => ?_
  have hl : lidx_main_v4 (ix2 n j) k = ix2 n k :=
    funext fun a => Fin.ext (by match a with | ⟨0, _⟩ => rfl | ⟨1, _⟩ => rfl)
  have hr : ridx_main_v4 (ix2 n j) k = ix2 k j :=
    funext fun a => Fin.ext (by match a with | ⟨0, _⟩ => rfl | ⟨1, _⟩ => rfl)
  rw [hl, hr]

/-- The row of `x · W1` looked up for edge `e` is the row of the edge's source node. -/
theorem v33_at (x0 : FVec Ideal S100000x5 .f32) (x1 : Gcn.EdgeArr) (x2 : FVec Ideal S5x128 .f32)
    (e : Fin 1600000) (j : Fin 128) :
    val_main_v33 (F := Ideal) x0 x1 x2 (ix2 e j) = ∑ k : Fin 5, x0 (ix2 (Gcn.srcNode x1 e) k) * x2 (ix2 k j) := by
  have hrec : gather_S100000x128_S1600000x1_S1600000x128_1_0_n_n_0_1_1128
      = Cert.RowGather.dims2 100000 128 1600000 gather_S100000x128_S1600000x1_S1600000x128_1_0_n_n_0_1_1128_wf := rfl
  unfold val_main_v33
  rw [hrec, srcCol32 x1]
  refine (Cert.RowGather.rows2_apply (w := 32) (by omega) gather_S100000x128_S1600000x1_S1600000x128_1_0_n_n_0_1_1128_wf
    (val_main_v4 (F := Ideal) x0 x2) (Gcn.asCol (Gcn.wrap (Gcn.srcWords x1))) e j).trans ?_
  exact v4_at x0 x2 (Gcn.srcNode x1 e) j

/-- The coefficient column spread over the 128 columns, at edge `e`. -/
theorem v35_at (x1 : Gcn.EdgeArr) (e : Fin 1600000) (j : Fin 128) :
    val_main_v35 (F := Ideal) x1 (ix2 e j) = Gcn.coefArr x1 (ix1 e) := by
  have hi : idx_main_v34 (idx_main_v35 (ix2 e j)) = ix1 e :=
    funext fun a => Fin.ext (by match a with | ⟨0, _⟩ => rfl)
  rw [val_main_v35_apply, val_main_v34_apply, coef26, hi]

/-- Layer one's scatter at node `n`, column `j`: zero plus the scaled source rows of the edges ending at `n`. -/
theorem v39_at (x0 : FVec Ideal S100000x5 .f32) (x1 : Gcn.EdgeArr) (x2 : FVec Ideal S5x128 .f32)
    (n : Fin 100000) (j : Fin 128) :
    val_main_v39 (F := Ideal) x0 x1 x2 (ix2 n j)
      = (0 : EReal) + ∑ e : Fin 1600000, if Gcn.endsAt x1 e n
          then (∑ k : Fin 5, x0 (ix2 (Gcn.srcNode x1 e) k) * x2 (ix2 k j)) * Gcn.coefArr x1 (ix1 e) else 0 := by
  have hrec : scatter_S100000x128_S1600000x1_S1600000x128_1_0_0_1
      = LibScatterAddRows.rowDims 100000 1600000 128 scatter_S100000x128_S1600000x1_S1600000x128_1_0_0_1_wf := rfl
  have h37 : val_main_v37 (F := Ideal) (ix2 n j) = 0 := by
    rw [val_main_v37_apply, val_main_cst_7_apply]; exact Ideal.ofBits_zero_f32
  unfold val_main_v39
  rw [hrec, dstCol38 x1]
  refine (LibScatterAddRows.scatterAdd_rows (w := 32) scatter_S100000x128_S1600000x1_S1600000x128_1_0_0_1_wf
    (val_main_v37 (F := Ideal)) (Gcn.asCol (Gcn.dstWords x1)) (val_main_v36 (F := Ideal) x0 x1 x2) n j).trans ?_
  rw [h37]
  refine congrArg ((0 : EReal) + ·) (Finset.sum_congr rfl fun e _ => ?_)
  refine if_congr Iff.rfl ?_ rfl
  rw [val_main_v36_apply, Ideal.mulf_def, v33_at, v35_at]

/-- The node's own row scaled by its squared inverse root degree. -/
theorem v43_at (x0 : FVec Ideal S100000x5 .f32) (x1 : Gcn.EdgeArr) (x2 : FVec Ideal S5x128 .f32)
    (n : Fin 100000) (j : Fin 128) :
    val_main_v43 (F := Ideal) x0 x1 x2 (ix2 n j)
      = (∑ k : Fin 5, x0 (ix2 n k) * x2 (ix2 k j)) * (Gcn.dinvArr x1 (ix1 n) * Gcn.dinvArr x1 (ix1 n)) := by
  have hi : idx_main_v41 (idx_main_v42 (ix2 n j)) = ix1 n :=
    funext fun a => Fin.ext (by match a with | ⟨0, _⟩ => rfl)
  rw [val_main_v43_apply, Ideal.mulf_def, v4_at, val_main_v42_apply, val_main_v41_apply, val_main_v40_apply,
    Ideal.mulf_def, dinv11, hi]

/-- Layer one's aggregation of column `j` of `x · W1`. -/
theorem v44_at (x0 : FVec Ideal S100000x5 .f32) (x1 : Gcn.EdgeArr) (x2 : FVec Ideal S5x128 .f32)
    (n : Fin 100000) (j : Fin 128) :
    val_main_v44 (F := Ideal) x0 x1 x2 (ix2 n j)
      = Gcn.agg x1 (fun n' => ∑ k : Fin 5, x0 (ix2 n' k) * x2 (ix2 k j)) n := by
  rw [val_main_v44_apply, Ideal.addf_def, v39_at, v43_at]
  rfl

/-- Layer one's output: bias added, clipped below at zero. -/
theorem v48_at (x0 : FVec Ideal S100000x5 .f32) (x1 : Gcn.EdgeArr) (x2 : FVec Ideal S5x128 .f32)
    (x3 : FVec Ideal S128 .f32) (n : Fin 100000) (j : Fin 128) :
    val_main_v48 (F := Ideal) x0 x1 x2 x3 (ix2 n j) = Gcn.hidden x0 x1 x2 x3 n j := by
  have hi : idx_main_v45 (idx_main_v46 (ix2 n j)) = ix1 j :=
    funext fun a => Fin.ext (by match a with | ⟨0, _⟩ => rfl)
  have h0 : val_main_call0_v0 (F := Ideal) (ix2 n j) = 0 := by
    rw [val_main_call0_v0_apply, val_main_call0_cst_apply]; exact Ideal.ofBits_zero_f32
  rw [val_main_v48_apply, Ideal.maximumf_def, val_main_v47_apply, Ideal.addf_def, v44_at, val_main_v46_apply,
    val_main_v45_apply, hi, h0]
  rfl

/-! ## Between the layers -/

/-- The hidden row of node `n` contracted against the one column of `W2`. -/
theorem v49_at (x0 : FVec Ideal S100000x5 .f32) (x1 : Gcn.EdgeArr) (x2 : FVec Ideal S5x128 .f32)
    (x3 : FVec Ideal S128 .f32) (x4 : FVec Ideal S128x1 .f32) (n : Fin 100000) :
    val_main_v49 (F := Ideal) x0 x1 x2 x3 x4 (ix2 n (0 : Fin 1)) = Gcn.proj x0 x1 x2 x3 x4 n := by
  rw [val_main_v49_apply]
  unfold Gcn.proj
  refine Finset.sum_congr rfl fun k _ => ?_
  have hl : lidx_main_v49 (ix2 n (0 : Fin 1)) k = ix2 n k :=
    funext fun a => Fin.ext (by match a with | ⟨0, _⟩ => rfl | ⟨1, _⟩ => rfl)
  have hr : ridx_main_v49 (ix2 n (0 : Fin 1)) k = ix2 k (0 : Fin 1) :=
    funext fun a => Fin.ext (by match a with | ⟨0, _⟩ => rfl | ⟨1, _⟩ => rfl)
  rw [hl, hr, v48_at]

/-! ## Layer two -/

/-- The contracted value looked up for edge `e` is that of the edge's source node. -/
theorem v78_at (x0 : FVec Ideal S100000x5 .f32) (x1 : Gcn.EdgeArr) (x2 : FVec Ideal S5x128 .f32)
    (x3 : FVec Ideal S128 .f32) (x4 : FVec Ideal S128x1 .f32) (e : Fin 1600000) :
    val_main_v78 (F := Ideal) x0 x1 x2 x3 x4 (ix2 e (0 : Fin 1)) = Gcn.proj x0 x1 x2 x3 x4 (Gcn.srcNode x1 e) := by
  have hrec : gather_S100000x1_S1600000x1_S1600000x1_1_0_n_n_0_1_11
      = Cert.RowGather.dims2 100000 1 1600000 gather_S100000x1_S1600000x1_S1600000x1_1_0_n_n_0_1_11_wf := rfl
  unfold val_main_v78
  rw [hrec, srcCol77 x1]
  refine (Cert.RowGather.rows2_apply (w := 32) (by omega) gather_S100000x1_S1600000x1_S1600000x1_1_0_n_n_0_1_11_wf
    (val_main_v49 (F := Ideal) x0 x1 x2 x3 x4) (Gcn.asCol (Gcn.wrap (Gcn.srcWords x1))) e (0 : Fin 1)).trans ?_
  exact v49_at x0 x1 x2 x3 x4 (Gcn.srcNode x1 e)

/-- Layer two's scatter at node `n`: zero plus the scaled source values of the edges ending at `n`. -/
theorem v83_at (x0 : FVec Ideal S100000x5 .f32) (x1 : Gcn.EdgeArr) (x2 : FVec Ideal S5x128 .f32)
    (x3 : FVec Ideal S128 .f32) (x4 : FVec Ideal S128x1 .f32) (n : Fin 100000) :
    val_main_v83 (F := Ideal) x0 x1 x2 x3 x4 (ix2 n (0 : Fin 1))
      = (0 : EReal) + ∑ e : Fin 1600000, if Gcn.endsAt x1 e n
          then Gcn.proj x0 x1 x2 x3 x4 (Gcn.srcNode x1 e) * Gcn.coefArr x1 (ix1 e) else 0 := by
  have hrec : scatter_S100000x1_S1600000x1_S1600000x1_1_0_0_1
      = LibScatterAddRows.rowDims 100000 1600000 1 scatter_S100000x1_S1600000x1_S1600000x1_1_0_0_1_wf := rfl
  have h81 : val_main_v81 (F := Ideal) (ix2 n (0 : Fin 1)) = 0 := by
    rw [val_main_v81_apply, val_main_cst_17_apply]; exact Ideal.ofBits_zero_f32
  unfold val_main_v83
  rw [hrec, dstCol82 x1]
  refine (LibScatterAddRows.scatterAdd_rows (w := 32) scatter_S100000x1_S1600000x1_S1600000x1_1_0_0_1_wf
    (val_main_v81 (F := Ideal)) (Gcn.asCol (Gcn.dstWords x1)) (val_main_v80 (F := Ideal) x0 x1 x2 x3 x4) n (0 : Fin 1)).trans ?_
  rw [h81]
  refine congrArg ((0 : EReal) + ·) (Finset.sum_congr rfl fun e _ => ?_)
  refine if_congr Iff.rfl ?_ rfl
  have hi : idx_main_v79 (ix2 e (0 : Fin 1)) = ix1 e :=
    funext fun a => Fin.ext (by match a with | ⟨0, _⟩ => rfl)
  rw [val_main_v80_apply, Ideal.mulf_def, v78_at, val_main_v79_apply, coef71, hi]

/-- The node's own contracted value scaled by its squared inverse root degree. -/
theorem v86_at (x0 : FVec Ideal S100000x5 .f32) (x1 : Gcn.EdgeArr) (x2 : FVec Ideal S5x128 .f32)
    (x3 : FVec Ideal S128 .f32) (x4 : FVec Ideal S128x1 .f32) (n : Fin 100000) :
    val_main_v86 (F := Ideal) x0 x1 x2 x3 x4 (ix2 n (0 : Fin 1))
      = Gcn.proj x0 x1 x2 x3 x4 n * (Gcn.dinvArr x1 (ix1 n) * Gcn.dinvArr x1 (ix1 n)) := by
  have hi : idx_main_v85 (ix2 n (0 : Fin 1)) = ix1 n :=
    funext fun a => Fin.ext (by match a with | ⟨0, _⟩ => rfl)
  rw [val_main_v86_apply, Ideal.mulf_def, v49_at, val_main_v85_apply, val_main_v84_apply, Ideal.mulf_def, dinv56, hi]

/-- Layer two's aggregation of the contracted column. -/
theorem v87_at (x0 : FVec Ideal S100000x5 .f32) (x1 : Gcn.EdgeArr) (x2 : FVec Ideal S5x128 .f32)
    (x3 : FVec Ideal S128 .f32) (x4 : FVec Ideal S128x1 .f32) (n : Fin 100000) :
    val_main_v87 (F := Ideal) x0 x1 x2 x3 x4 (ix2 n (0 : Fin 1)) = Gcn.agg x1 (Gcn.proj x0 x1 x2 x3 x4) n := by
  rw [val_main_v87_apply, Ideal.addf_def, v83_at, v86_at]
  rfl

/-! ## The result -/

/-- The reference program's result is the specification's two-layer graph convolution. -/
theorem val_out (x0 : FVec Ideal S100000x5 .f32) (x1 : Gcn.EdgeArr) (x2 : FVec Ideal S5x128 .f32)
    (x3 : FVec Ideal S128 .f32) (x4 : FVec Ideal S128x1 .f32) (x5 : FVec Ideal S1 .f32) :
    val_main_v90 (F := Ideal) x0 x1 x2 x3 x4 x5 = Gcn.out x0 x1 x2 x3 x4 x5 := by
  funext i
  obtain ⟨n, z, rfl⟩ : ∃ (n : Fin 100000) (z : Fin 1), i = ix2 n z := ⟨i 0, i 1, eq_ix2 i⟩
  obtain rfl : z = 0 := Subsingleton.elim _ _
  have hi : idx_main_v88 (idx_main_v89 (ix2 n (0 : Fin 1))) = ix1 (0 : Fin 1) :=
    funext fun a => Fin.ext (by match a with | ⟨0, _⟩ => rfl)
  rw [val_main_v90_apply, Ideal.addf_def, v87_at, val_main_v89_apply, val_main_v88_apply, hi]
  rfl

end Cert.ReferenceIdeal.RefValue

end
-- ==== Proof.Finite.lean ====
/-
  The precondition of the claim says that every float argument is finite: it is printed as
  "all entries satisfy |v| < +infinity", one such test per argument, joined by "and".
  Read at the exact extended reals, this file turns that statement back into the plain fact
  that every entry of every float argument is a real number.
-/
import proofs.«172965_j60052232732743_2_alg».proof.Proof.Gen.Pre_finite_inputs
import Idealize.ShloMosaic.Lib.ReduceAll
import Idealize.ShloMosaic.Lib.ValueIdx
import Idealize.ShloMosaic.PureOps.Ideal

namespace Cert.Gcn.Finite

open Idealize.ShloMosaic Cert.Pre_finite_inputs

/-- The shape of rank zero has exactly one index. -/
instance subsingleton_S_ : Subsingleton S_.Idx := ⟨fun a b => funext fun d => d.elim0⟩

/-- The word 0x7F800000 denotes plus infinity. -/
theorem ofBits_inf : Ideal.ofBits .f32 0x7F800000#32 = (⊤ : EReal) := by
  simp [Ideal.ofBits, Ideal.ieee]

/-- An extended real whose absolute value is strictly below plus infinity is a real number:
    at minus infinity and at plus infinity the absolute value is plus infinity. -/
theorem real_of_abs_lt_top (a : EReal) (h : Ideal.cmp .olt (max a (-a)) (⊤ : EReal) = 1#1) :
    ∃ r : ℝ, a = (r : EReal) := by
  induction a using EReal.rec with
  | bot => simp [Ideal.cmp] at h
  | coe r => exact ⟨r, rfl⟩
  | top => simp [Ideal.cmp] at h

/-- The element step, for any shape: if the printed test "|v| < +infinity" gives 1 at an index,
    the entry of `v` there is a real number. -/
theorem real_of_cmpf {s : Shape} (v : FVec Ideal s .f32)
    (hb : S_.BroadcastsInDim s (![] : Fin 0 → Fin s.rank)) (i : s.Idx)
    (h : cmpf .olt (Host.absf v) (broadcastInDim s ![] hb (constant S_ .f32 0x7F800000#32)) i = 1#1) :
    ∃ r : ℝ, v i = (r : EReal) := by
  have h' : Ideal.cmp .olt (max (v i) (-(v i))) (Ideal.ofBits .f32 0x7F800000#32) = 1#1 := h
  rw [ofBits_inf] at h'
  exact real_of_abs_lt_top (v i) h'

/-- The precondition, decoded: under it every entry of each of the five float arguments is a real number. -/
theorem real_of_pre_all (x : FVec Ideal S100000x5 .f32) (ei : IVec S2x1600000 32) (W1 : FVec Ideal S5x128 .f32)
    (b1 : FVec Ideal S128 .f32) (W2 : FVec Ideal S128x1 .f32) (b2 : FVec Ideal S1 .f32)
    (h : Cert.Pre_finite_inputs.fn (F := Ideal) x ei W1 b1 W2 b2 = fun _ => 1#1) :
    (∀ i, ∃ r : ℝ, x i = (r : EReal)) ∧ (∀ i, ∃ r : ℝ, W1 i = (r : EReal)) ∧ (∀ i, ∃ r : ℝ, b1 i = (r : EReal))
      ∧ (∀ i, ∃ r : ℝ, W2 i = (r : EReal)) ∧ (∀ i, ∃ r : ℝ, b2 i = (r : EReal)) := by
  have e := congrFun h ValueIdx.ix0
  dsimp only [fn, fn_part1, andi] at e
  simp only [IntOp.andi_eq_one] at e
  obtain ⟨⟨⟨⟨e0, e1⟩, e2⟩, e3⟩, e4⟩ := e
  exact ⟨fun i => real_of_cmpf x _ i (Host.reduce_andi_all _ _ _ _ _ e0 i),
    fun i => real_of_cmpf W1 _ i (Host.reduce_andi_all _ _ _ _ _ e1 i),
    fun i => real_of_cmpf b1 _ i (Host.reduce_andi_all _ _ _ _ _ e2 i),
    fun i => real_of_cmpf W2 _ i (Host.reduce_andi_all _ _ _ _ _ e3 i),
    fun i => real_of_cmpf b2 _ i (Host.reduce_andi_all _ _ _ _ _ e4 i)⟩

/-- The two arguments the value proof needs: every entry of the first and of the third argument is a real number. -/
theorem real_of_pre (x : FVec Ideal S100000x5 .f32) (ei : IVec S2x1600000 32) (W1 : FVec Ideal S5x128 .f32)
    (b1 : FVec Ideal S128 .f32) (W2 : FVec Ideal S128x1 .f32) (b2 : FVec Ideal S1 .f32)
    (h : Cert.Pre_finite_inputs.fn (F := Ideal) x ei W1 b1 W2 b2 = fun _ => 1#1) :
    (∀ i, ∃ r : ℝ, x i = (r : EReal)) ∧ (∀ i, ∃ r : ℝ, W1 i = (r : EReal)) :=
  have a := real_of_pre_all x ei W1 b1 W2 b2 h
  ⟨a.1, a.2.1⟩

end Cert.Gcn.Finite
-- ==== Proof.lean ====
/-
  A two-layer graph convolution (100000 nodes, 1600000 edges, 5 → 128 → 1 features): the kernel against its reference,
  on the extended reals.

  Both programs normalise the graph the same way: `dinv(n) = deg(n)^(-1/2)` with a self-loop counted in the degree, an
  edge's coefficient `dinv(src) · dinv(dst)`, and a layer maps a column `T` of node values to
      Σ over the edges e ending at n of T(src e) · coef e  +  T(n) · dinv(n)².
  The reference applies the first weight matrix to every node and aggregates the 128 resulting columns. The kernel
  aggregates the 5 raw feature columns first and applies the weight matrix afterwards, inside one fused region that
  also adds the bias, clips at zero and contracts against the second weight matrix, 5000 nodes per grid point; the
  second layer's aggregation then runs after the region, as in the reference. Aggregation is linear, so the two orders
  agree: a double sum over edges and features re-associated. That step uses distributivity, which holds on the
  extended reals only away from the infinities — this is where the precondition (finite features and weights) is used,
  together with the fact that every `dinv` and every coefficient is a real number because a degree is at least one.
  Everything else is the same operation on both sides, read entry by entry.

  The three frames are the generated frame runs; the idealization rewrote nothing, so `preserves` is trivial.
-/
import proofs.«172965_j60052232732743_2_alg».proof.Defs
import proofs.«172965_j60052232732743_2_alg».proof.Proof.Gen.Kernel
import proofs.«172965_j60052232732743_2_alg».proof.Proof.Gen.Kernel.Skeleton
import proofs.«172965_j60052232732743_2_alg».proof.Proof.Gen.Kernel.Launch
import proofs.«172965_j60052232732743_2_alg».proof.Proof.Gen.Kernel.Points
import proofs.«172965_j60052232732743_2_alg».proof.Proof.Gen.Kernel.Frame
import proofs.«172965_j60052232732743_2_alg».proof.Proof.Gen.KernelIdeal
import proofs.«172965_j60052232732743_2_alg».proof.Proof.Gen.KernelIdeal.Skeleton
import proofs.«172965_j60052232732743_2_alg».proof.Proof.Gen.KernelIdeal.Launch
import proofs.«172965_j60052232732743_2_alg».proof.Proof.Gen.KernelIdeal.Points
import proofs.«172965_j60052232732743_2_alg».proof.Proof.Gen.KernelIdeal.Frame
import proofs.«172965_j60052232732743_2_alg».proof.Proof.Gen.ReferenceIdeal
import proofs.«172965_j60052232732743_2_alg».proof.Proof.Gen.ReferenceIdeal.Run
import proofs.«172965_j60052232732743_2_alg».proof.Proof.Gen.ReferenceIdeal.Read
import proofs.«172965_j60052232732743_2_alg».proof.Proof.Gen.Pre_finite_inputs
import proofs.«172965_j60052232732743_2_alg».proof.Proof.KernelRun
import proofs.«172965_j60052232732743_2_alg».proof.Proof.RefValue
import proofs.«172965_j60052232732743_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the arguments, both programs end with the specification's
    output: the kernel by the re-association inside layer one (finite features and weights), the reference by reading
    its own operations. -/
theorem algebraic : Cert.algebraic_KernelIdeal_ReferenceIdeal := by
  intro m ρ m' ρ' hpre hagree
  have hreal := fun c : Dev Cert.KernelIdeal.nD => Cert.Gcn.Finite.real_of_pre _ _ _ _ _ _ (hpre c)
  refine ⟨fun c => Cert.Gcn.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.Gcn.kernel_run m ρ (fun c => (hreal c).1) (fun c => (hreal c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq, Cert.ReferenceIdeal.RefValue.val_out,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
